-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S4000x128 : Shape := ⟨2, ![4000, 128]⟩
abbrev S1700000x128 : Shape := ⟨2, ![1700000, 128]⟩
abbrev S100000x40 : Shape := ⟨2, ![100000, 40]⟩
abbrev S4000x40 : Shape := ⟨2, ![4000, 40]⟩
abbrev S1x128 : Shape := ⟨2, ![1, 128]⟩
abbrev S1700000x40 : Shape := ⟨2, ![1700000, 40]⟩
abbrev S1x40 : Shape := ⟨2, ![1, 40]⟩
abbrev S4000 : Shape := ⟨1, ![4000]⟩
abbrev S4000x1 : Shape := ⟨2, ![4000, 1]⟩

abbrev nBuf : Space → Nat
  | .hbm => 77
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S100000x40, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x40, .f32⟩
  | .hbm, ⟨69, _⟩ => ⟨S1700000x1, .f32⟩
  | .hbm, ⟨70, _⟩ => ⟨S1700000x40, .f32⟩
  | .hbm, ⟨71, _⟩ => ⟨S1700000x40, .f32⟩
  | .hbm, ⟨72, _⟩ => ⟨S_, .f32⟩
  | .hbm, ⟨73, _⟩ => ⟨S100000x40, .f32⟩
  | .hbm, ⟨74, _⟩ => ⟨S1700000x1, .i32⟩
  | .hbm, ⟨75, _⟩ => ⟨S100000x40, .f32⟩
  | .hbm, ⟨76, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S128x128, .f32⟩
  | .local _ .vmem, ⟨3, _⟩ => ⟨S4000x128, .f32⟩
  | .local _ .vmem, ⟨4, _⟩ => ⟨S4000x128, .f32⟩
  | .local _ .vmem, ⟨5, _⟩ => ⟨S4000x128, .f32⟩
  | .local _ .vmem, ⟨6, _⟩ => ⟨S4000x128, .f32⟩
  | .local _ .vmem, ⟨7, _⟩ => ⟨S128, .f32⟩
  | .local _ .vmem, ⟨8, _⟩ => ⟨S128x40, .f32⟩
  | .local _ .vmem, ⟨9, _⟩ => ⟨S4000x40, .f32⟩
  | .local _ .vmem, ⟨10, _⟩ => ⟨S4000x40, .f32⟩
  | .local _ .vmem, ⟨11, _⟩ => ⟨S4000x40, .f32⟩
  | .local _ .vmem, ⟨12, _⟩ => ⟨S4000x40, .f32⟩
  | .local _ .vmem, ⟨13, _⟩ => ⟨S40, .f32⟩
  | .local _ .vmem, ⟨14, _⟩ => ⟨S4000x40, .f32⟩
  | .local _ .vmem, ⟨15, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_8 : Ref sig .tc := ⟨.hbm, 60, rfl⟩
abbrev main_v44 : Ref sig .tc := ⟨.hbm, 61, rfl⟩
abbrev main_v45 : Ref sig .tc := ⟨.hbm, 62, rfl⟩
abbrev main_c_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x40_S128x40_0_0 : ∀ a, (![0, 0] : Fin 2 → Nat) a + S128x40.size a ≤ S128x40.size a
  h_S128x40 : 0 < S128x40.numel
  inb_S4000x40_S4000x40_0_0 : ∀ a, (![0, 0] : Fin 2 → Nat) a + S4000x40.size a ≤ S4000x40.size a
  h_S4000x40 : 0 < S4000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  shapeCasts_S4000x40_S4000x40 : S4000x40.ShapeCasts S4000x40
  inb_S40_S40_0 : ∀ a, (![0] : Fin 1 → Nat) a + S40.size a ≤ S40.size a
  h_S40 : 0 < S40.numel
  shapeCasts_S40_S1x40 : S40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x128_S128x128_S4000x128_1_0_0_1_n_n_wf : DotDims.WF S4000x128 S128x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x40_S4000x40_1_0_0_1_n_n_wf : DotDims.WF S4000x128 S128x40 S4000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .f32 = 32 ∨ (Rect.block (s := S100000x128) S4000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x40.size a ≤ S100000x40.size a
  hwx1_3 : ∀ i : grid1.Coords, EltTy.bits .f32 = 32 ∨ (Rect.block (s := S100000x40) S4000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x40.size a ≤ S100000x40.size a
  hwx2_0 : ∀ i : grid2.Coords, EltTy.bits .f32 = 32 ∨ (Rect.block (s := S100000x40) S4000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S40.size a ≤ S40.size a
  hwx2_1 : ∀ i : grid2.Coords, EltTy.bits .f32 = 32 ∨ (Rect.block (s := S40) S40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x40.size a ≤ S100000x40.size a
  hwx2_2 : ∀ i : grid2.Coords, EltTy.bits .f32 = 32 ∨ (Rect.block (s := S100000x40) S4000x40.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S4000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v56) S4000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v57) S4000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩
abbrev S100000x1 : Shape := ⟨2, ![100000, 1]⟩

abbrev nBuf : Space → Nat
  | .hbm => 100
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x40, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x40, .f32⟩
  | .hbm, ⟨75, _⟩ => ⟨S1700000x1, .f32⟩
  | .hbm, ⟨76, _⟩ => ⟨S1700000x40, .f32⟩
  | .hbm, ⟨77, _⟩ => ⟨S1700000x40, .f32⟩
  | .hbm, ⟨78, _⟩ => ⟨S_, .f32⟩
  | .hbm, ⟨79, _⟩ => ⟨S100000x40, .f32⟩
  | .hbm, ⟨80, _⟩ => ⟨S1700000x1, .i32⟩
  | .hbm, ⟨81, _⟩ => ⟨S100000x40, .f32⟩
  | .hbm, ⟨82, _⟩ => ⟨S1x40, .f32⟩
  | .hbm, ⟨83, _⟩ => ⟨S100000x40, .f32⟩
  | .hbm, ⟨84, _⟩ => ⟨S100000x40, .f32⟩
  | .hbm, ⟨85, _⟩ => ⟨S_, .f32⟩
  | .hbm, ⟨86, _⟩ => ⟨S100000, .f32⟩
  | .hbm, ⟨87, _⟩ => ⟨S_, .f32⟩
  | .hbm, ⟨88, _⟩ => ⟨S100000, .f32⟩
  | .hbm, ⟨89, _⟩ => ⟨S100000, .f32⟩
  | .hbm, ⟨90, _⟩ => ⟨S100000x1, .f32⟩
  | .hbm, ⟨91, _⟩ => ⟨S100000x40, .f32⟩
  | .hbm, ⟨92, _⟩ => ⟨S100000x40, .f32⟩
  | .hbm, ⟨93, _⟩ => ⟨S100000x40, .f32⟩
  | .hbm, ⟨94, _⟩ => ⟨S_, .f32⟩
  | .hbm, ⟨95, _⟩ => ⟨S100000, .f32⟩
  | .hbm, ⟨96, _⟩ => ⟨S100000x1, .f32⟩
  | .hbm, ⟨97, _⟩ => ⟨S100000x1, .f32⟩
  | .hbm, ⟨98, _⟩ => ⟨S100000x40, .f32⟩
  | .hbm, ⟨99, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_call1_cst_0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_call1_v5 : Ref sig .tc := ⟨.hbm, 92, rfl⟩
abbrev main_call1_v6 : Ref sig .tc := ⟨.hbm, 93, rfl⟩
abbrev main_call1_cst_1 : Ref sig .tc := ⟨.hbm, 94, rfl⟩
abbrev main_call1_v7 : Ref sig .tc := ⟨.hbm, 95, rfl⟩
abbrev main_call1_v8 : Ref sig .tc := ⟨.hbm, 96, rfl⟩
abbrev main_call1_v9 : Ref sig .tc := ⟨.hbm, 97, rfl⟩
abbrev main_call1_v10 : Ref sig .tc := ⟨.hbm, 98, rfl⟩
abbrev main_v64 : Ref sig .tc := ⟨.hbm, 99, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The kernel program's run with its result kept.

  The program is three pipelined launches among stretches of host operations. Its run ends with every unscoped
  buffer at the last boundary's contents (the fold `Gen.W6` of the host stretches and the launches' write-backs
  over the launch memory); the frame claim reads only the six argument buffers off that state. Here the result
  buffer is read off the same state as well: after the run it holds `Gen.W6 m ρ c` at the result's reference.
-/
import proofs.«149227_j18811956756716_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the six argument buffers as launched. -/
theorem run : θ_run defs (onTc (τ := τ) (main (F := F))) ⟨m, fun _ => 0, ρ⟩ (fun r => ∀ c : Dev nD,
      r.2.mem ((c.tc : Thread nD τ).loc main_v57) = W6 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v57 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Result

end
-- ==== Proof.Sparse.lean ====
/-
  The sparse part both programs share, as named functions of the edge list.

  Every node gets a self loop: the source list is the edge list's first row followed by 0 … N−1, the target list its
  second row followed by the same. A node's weight is the inverse square root of its in-degree (at least 1), an edge's
  weight the product of its two endpoints' weights, and a feature array `h` is AGGREGATED by gathering the source
  rows, scaling each by its edge's weight and adding it into the target's row. Gather indices are wrapped the way a
  negative index is (an index below 0 has the node count added).

  Nothing here is ever opened by a proof: both programs apply these same operations, and the certificate only needs
  that they are applied to equal arguments.
-/
import proofs.«149227_j18811956756716_1_alg».proof.Proof.Gen.KernelIdeal

noncomputable section

namespace Cert.Gcn.Sparse

open Cert.KernelIdeal Cert.KernelIdeal.Gen Idealize.ShloMosaic

variable {F : FTy → Type} [FloatOps F]

/-- One row of the edge list followed by every node once (the self loops): `row = 0` the sources, `row = 1` the targets. -/
def sources (e : (⟨S2x1600000, .i32⟩ : BufTy).Contents (Elt F)) : (⟨S1700000, .i32⟩ : BufTy).Contents (Elt F) :=
  concatenate S1700000 0 [⟨S1600000, shapeCast S1600000 (extractStridedSlice S1x1600000 ![0, 0] e slices_S2x1600000_S1x1600000_0_0) shapeCasts_S1x1600000_S1600000⟩, ⟨S100000, iotaInDim S100000 32 0⟩] concatenates_S1600000_S100000_S1700000_d0

@[inherit_doc sources]
def targets (e : (⟨S2x1600000, .i32⟩ : BufTy).Contents (Elt F)) : (⟨S1700000, .i32⟩ : BufTy).Contents (Elt F) :=
  concatenate S1700000 0 [⟨S1600000, shapeCast S1600000 (extractStridedSlice S1x1600000 ![1, 0] e slices_S2x1600000_S1x1600000_1_0) shapeCasts_S1x1600000_S1600000⟩, ⟨S100000, iotaInDim S100000 32 0⟩] concatenates_S1600000_S100000_S1700000_d0

/-- A list of node numbers as one column of scatter indices. -/
def column (t : (⟨S1700000, .i32⟩ : BufTy).Contents (Elt F)) : (⟨S1700000x1, .i32⟩ : BufTy).Contents (Elt F) :=
  broadcastInDim S1700000x1 ![0] bcast_S1700000_S1700000x1_0 t

/-- A list of node numbers as one column of gather indices, an entry below zero wrapped by the node count. -/
def wrapped (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- Each node's weight: the inverse square root of its in-degree (self loop included), the degree at least 1. -/
def nodeWeight (t : (⟨S1700000, .i32⟩ : BufTy).Contents (Elt F)) : (⟨S100000, .f32⟩ : BufTy).Contents (Elt F) :=
  Host.rsqrt (maximumf
    (Host.scatterAdd scatter_S100000_S1700000x1_S1700000_n_0_0_1
      (broadcastInDim S100000 ![] bcast_S_S100000 (constant S_ .f32 0x00000000#32)) (column t)
      (broadcastInDim S1700000 ![] bcast_S_S1700000 (constant S_ .f32 0x3F800000#32)))
    (broadcastInDim S100000 ![] bcast_S_S100000 (constant S_ .f32 0x3F800000#32)))

/-- Each edge's weight: the product of its endpoints' weights. -/
def edgeWeight (s t : (⟨S1700000, .i32⟩ : BufTy).Contents (Elt F)) : (⟨S1700000, .f32⟩ : BufTy).Contents (Elt F) :=
  mulf (Host.gather gather_S100000_S1700000x1_S1700000_n_0_n_n_0_1_1 (nodeWeight t) (wrapped s))
    (Host.gather gather_S100000_S1700000x1_S1700000_n_0_n_n_0_1_1 (nodeWeight t) (wrapped t))

/-- Aggregation of 128 features: gather the source rows, scale by the edge weight, add into the target rows. -/
def aggregate128 (s t : (⟨S1700000, .i32⟩ : BufTy).Contents (Elt F)) (w : (⟨S1700000, .f32⟩ : BufTy).Contents (Elt F))
    (h : (⟨S100000x128, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32)) (column t)
    (mulf (Host.gather gather_S100000x128_S1700000x1_S1700000x128_1_0_n_n_0_1_1128 h (wrapped s))
      (broadcastInDim S1700000x128 ![0, 1] bcast_S1700000x1_S1700000x128_0_1 (broadcastInDim S1700000x1 ![0] bcast_S1700000_S1700000x1_0 w)))

/-- Aggregation of 40 features, likewise. -/
def aggregate40 (s t : (⟨S1700000, .i32⟩ : BufTy).Contents (Elt F)) (w : (⟨S1700000, .f32⟩ : BufTy).Contents (Elt F))
    (h : (⟨S100000x40, .f32⟩ : BufTy).Contents (Elt F)) : (⟨S100000x40, .f32⟩ : BufTy).Contents (Elt F) :=
  Host.scatterAdd scatter_S100000x40_S1700000x1_S1700000x40_1_0_0_1
    (broadcastInDim S100000x40 ![] bcast_S_S100000x40 (constant S_ .f32 0x00000000#32)) (column t)
    (mulf (Host.gather gather_S100000x40_S1700000x1_S1700000x40_1_0_n_n_0_1_140 h (wrapped s))
      (broadcastInDim S1700000x40 ![0, 1] bcast_S1700000x1_S1700000x40_0_1 (broadcastInDim S1700000x1 ![0] bcast_S1700000_S1700000x1_0 w)))

end Cert.Gcn.Sparse

end
-- ==== Proof.LibRowsTimes.lean ====
/-
  The product of two arrays, entry by entry, on the extended reals — general in the extents M, K, N.

  For `a` of shape [M, K] and `w` of shape [K, N] the product `rowsTimes a w` has, at (r, j), the sum over `k` of
  `a (r, k) · w (k, j)`. Three facts:

  * `rowsTimes_of_rows` — rows of a product are products of rows: if a block `a'` of shape [R, K] holds, at its row
    `j 0`, what `a` holds at row `i 0` (and `w'` at column `j 1` what `w` holds at column `i 1`), then `a' · w'`
    at `j` is `a · w` at `i`. This is why a product computed one block of rows at a time is the whole product.
  * `contraction_eq` — a contraction over ONE axis of extent K (how a matrix unit's product into a zero
    accumulator, and the host's `dot_general`, read on the extended reals: a sum over the contraction index of
    left-operand × right-operand entries) is `rowsTimes`, once the contraction index is renamed by its one
    coordinate and the two operand indices are shown to be (row, k) and (k, column).
  * `relu` — the maximum with zero, entry by entry, the zero spelt as the f32 word 0x00000000.

  No finiteness is needed anywhere: both sides of every equation are the same sum of the same products in the
  same order.
-/
import Idealize.ShloMosaic.PureOps.Ideal.Laws
import Idealize.ShloMosaic.Lib.ValueIdx

noncomputable section

namespace Cert.Dense

open Idealize.ShloMosaic Idealize.ShloMosaic.ValueIdx

/-- `(a · w) (r, j) = ∑ k, a (r, k) · w (k, j)`. -/
def rowsTimes {M K N : Nat} (a : (⟨2, ![M, K]⟩ : Shape).Idx → EReal) (w : (⟨2, ![K, N]⟩ : Shape).Idx → EReal) :
    (⟨2, ![M, N]⟩ : Shape).Idx → EReal :=
  fun i => ∑ k : Fin K, a (ix2 (i 0 : Fin M) k) * w (ix2 k (i 1 : Fin N))

/-- The rectifier `x ↦ max x 0`, entry by entry (the zero spelt as the f32 word both programs print it as: the
    same word on both sides, never evaluated). -/
def relu {S : Shape} (x : S.Idx → EReal) : S.Idx → EReal :=
  fun i => max (x i) (Ideal.ofBits .f32 0x00000000#32)

/-- Rows of a product are the products of rows: where `a'` at row `j 0` is `a` at row `i 0`, and `w'` at column
    `j 1` is `w` at column `i 1`, the two products agree at `j` and `i`. -/
theorem rowsTimes_of_rows {M R K N N' : Nat} (a : (⟨2, ![M, K]⟩ : Shape).Idx → EReal) (w : (⟨2, ![K, N]⟩ : Shape).Idx → EReal)
    (a' : (⟨2, ![R, K]⟩ : Shape).Idx → EReal) (w' : (⟨2, ![K, N']⟩ : Shape).Idx → EReal)
    (j : (⟨2, ![R, N']⟩ : Shape).Idx) (i : (⟨2, ![M, N]⟩ : Shape).Idx)
    (ha : ∀ k : Fin K, a' (ix2 (j 0 : Fin R) k) = a (ix2 (i 0 : Fin M) k))
    (hw : ∀ k : Fin K, w' (ix2 k (j 1 : Fin N')) = w (ix2 k (i 1 : Fin N))) :
    rowsTimes a' w' j = rowsTimes a w i :=
  Finset.sum_congr rfl fun k _ => by rw [ha k, hw k]

/-- A contraction over one axis of extent `K` whose left index at (i, q) is (i 0, q) and whose right index is
    (q, i 1) is the product above: the contraction index renamed by its one coordinate. -/
theorem contraction_eq {M K N : Nat} {sl sr so : Shape} (d : DotDims sl sr so) (hr : d.contr.rank = 1)
    (hs : d.contr.size ⟨0, by omega⟩ = K)
    (a : (⟨2, ![M, K]⟩ : Shape).Idx → EReal) (w : (⟨2, ![K, N]⟩ : Shape).Idx → EReal)
    (l : sl.Idx → EReal) (r : sr.Idx → EReal) (i : so.Idx) (i' : (⟨2, ![M, N]⟩ : Shape).Idx)
    (hl : ∀ k : Fin K, l (d.lhsIdx i ((contrEquiv1 d K hr hs).symm k)) = a (ix2 (i' 0 : Fin M) k))
    (hw : ∀ k : Fin K, r (d.rhsIdx i ((contrEquiv1 d K hr hs).symm k)) = w (ix2 k (i' 1 : Fin N))) :
    ∑ q : d.contr.Idx, l (d.lhsIdx i q) * r (d.rhsIdx i q) = rowsTimes a w i' := by
  rw [← Equiv.sum_comp (contrEquiv1 d K hr hs).symm]
  exact Finset.sum_congr rfl fun k _ => by rw [hl k, hw k]

end Cert.Dense

end
-- ==== Proof.Layers.lean ====
/-
  The three dense stages of a two-layer graph convolution, each as ONE function of whole arrays on the extended reals.

  Between the stages both programs apply the same sparse aggregation (gather the source rows, scale by the edge
  weight, add into the destination rows); that part is never opened. What the launches compute is:

  * the first layer's product `x · W₁` (`Cert.Dense.rowsTimes`);
  * `hiddenTimes a b w = relu (a + b) · w`: the bias `b` added to every row of `a`, the rectifier, then the product;
  * `biasLogSoftmax a b`: the bias added to every row, then each row `v` sent to `v - max v - log ∑ exp (v - max v)`,
    the maximum taken from the f32 word of −∞ (carried, never evaluated).

  Each is ROW-LOCAL: row `r` of the result depends on row `r` of the first operand only. So a block of rows computed
  from the same rows of the operand is the same rows of the whole result (`*_of_rows`); this is what makes 25 launches
  over blocks of 4000 rows one whole-array function. No finiteness is used anywhere: each side of every equation is
  the same expression of the same entries.
-/
import Idealize.ShloMosaic.PureOps.Ideal.Laws
import Idealize.ShloMosaic.Lib.ValueIdx
import proofs.«149227_j18811956756716_1_alg».proof.Proof.LibRowsTimes

noncomputable section

namespace Cert.Gcn

open Idealize.ShloMosaic Idealize.ShloMosaic.ValueIdx Cert.Dense

variable {M R K N : Nat}

/-- A bias added to every row, then the rectifier: `max (a (r, k) + b k) 0`. -/
def biasRelu (a : (⟨2, ![M, K]⟩ : Shape).Idx → EReal) (b : (⟨1, ![K]⟩ : Shape).Idx → EReal) :
    (⟨2, ![M, K]⟩ : Shape).Idx → EReal :=
  fun i => max (a i + b (ix1 (i 1 : Fin K))) (Ideal.ofBits .f32 0x00000000#32)

/-- The second layer's dense part: `relu (a + b) · w`. -/
def hiddenTimes (a : (⟨2, ![M, K]⟩ : Shape).Idx → EReal) (b : (⟨1, ![K]⟩ : Shape).Idx → EReal)
    (w : (⟨2, ![K, N]⟩ : Shape).Idx → EReal) : (⟨2, ![M, N]⟩ : Shape).Idx → EReal :=
  rowsTimes (biasRelu a b) w

/-- A bias added to every row: `a (r, k) + b k`. -/
def biased (a : (⟨2, ![M, N]⟩ : Shape).Idx → EReal) (b : (⟨1, ![N]⟩ : Shape).Idx → EReal) :
    (⟨2, ![M, N]⟩ : Shape).Idx → EReal :=
  fun i => a i + b (ix1 (i 1 : Fin N))

/-- A row's maximum, taken from the f32 word of −∞. -/
def rowMax (v : (⟨2, ![M, N]⟩ : Shape).Idx → EReal) (r : Fin M) : EReal :=
  (Finset.univ : Finset (Fin N)).fold max (Ideal.ofBits .f32 0xFF800000#32) (fun k => v (ix2 r k))

/-- The sum of a row's exponentials, each entry taken at its distance to the row's maximum. -/
def rowExpSum (v : (⟨2, ![M, N]⟩ : Shape).Idx → EReal) (r : Fin M) : EReal :=
  ∑ k : Fin N, Ideal.exp (v (ix2 r k) - rowMax v r)

/-- Row-wise log-softmax: `v - max v - log ∑ exp (v - max v)` along each row. -/
def logSoftmaxRows (v : (⟨2, ![M, N]⟩ : Shape).Idx → EReal) : (⟨2, ![M, N]⟩ : Shape).Idx → EReal :=
  fun i => v i - rowMax v (i 0 : Fin M) - Ideal.log (rowExpSum v (i 0 : Fin M))

/-- The last stage: the bias, then the row-wise log-softmax. -/
def biasLogSoftmax (a : (⟨2, ![M, N]⟩ : Shape).Idx → EReal) (b : (⟨1, ![N]⟩ : Shape).Idx → EReal) :
    (⟨2, ![M, N]⟩ : Shape).Idx → EReal :=
  logSoftmaxRows (biased a b)

/-! ## Row locality -/

/-- Where row `p` of `a'` is row `q` of `a`, row `p` of `relu (a' + b) · w` is row `q` of `relu (a + b) · w`. -/
theorem hiddenTimes_of_rows (a : (⟨2, ![M, K]⟩ : Shape).Idx → EReal) (a' : (⟨2, ![R, K]⟩ : Shape).Idx → EReal)
    (b : (⟨1, ![K]⟩ : Shape).Idx → EReal) (w : (⟨2, ![K, N]⟩ : Shape).Idx → EReal) (p : Fin R) (q : Fin M) (c : Fin N)
    (h : ∀ k : Fin K, a' (ix2 p k) = a (ix2 q k)) :
    hiddenTimes a' b w (ix2 p c) = hiddenTimes a b w (ix2 q c) :=
  rowsTimes_of_rows (biasRelu a b) w (biasRelu a' b) w (ix2 p c) (ix2 q c)
    (fun k => by show max (a' (ix2 p k) + b (ix1 k)) _ = max (a (ix2 q k) + b (ix1 k)) _; rw [h k])
    (fun _ => rfl)

/-- Where row `p` of `v'` is row `q` of `v`, the two rows have one maximum. -/
theorem rowMax_of_rows (v : (⟨2, ![M, N]⟩ : Shape).Idx → EReal) (v' : (⟨2, ![R, N]⟩ : Shape).Idx → EReal) (p : Fin R) (q : Fin M)
    (h : ∀ k : Fin N, v' (ix2 p k) = v (ix2 q k)) : rowMax v' p = rowMax v q := by
  unfold rowMax; rw [show (fun k => v' (ix2 p k)) = fun k => v (ix2 q k) from funext h]

/-- … and one sum of exponentials. -/
theorem rowExpSum_of_rows (v : (⟨2, ![M, N]⟩ : Shape).Idx → EReal) (v' : (⟨2, ![R, N]⟩ : Shape).Idx → EReal) (p : Fin R) (q : Fin M)
    (h : ∀ k : Fin N, v' (ix2 p k) = v (ix2 q k)) : rowExpSum v' p = rowExpSum v q := by
  unfold rowExpSum; rw [rowMax_of_rows v v' p q h]
  exact Finset.sum_congr rfl fun k _ => by rw [h k]

/-- So row `p` of the log-softmax of `v'` is row `q` of the log-softmax of `v`. -/
theorem logSoftmaxRows_of_rows (v : (⟨2, ![M, N]⟩ : Shape).Idx → EReal) (v' : (⟨2, ![R, N]⟩ : Shape).Idx → EReal) (p : Fin R) (q : Fin M)
    (c : Fin N) (h : ∀ k : Fin N, v' (ix2 p k) = v (ix2 q k)) :
    logSoftmaxRows v' (ix2 p c) = logSoftmaxRows v (ix2 q c) := by
  show v' (ix2 p c) - rowMax v' p - Ideal.log (rowExpSum v' p) = v (ix2 q c) - rowMax v q - Ideal.log (rowExpSum v q)
  rw [h c, rowMax_of_rows v v' p q h, rowExpSum_of_rows v v' p q h]

/-- The same with the bias: row `p` of `biasLogSoftmax a' b` is row `q` of `biasLogSoftmax a b`. -/
theorem biasLogSoftmax_of_rows (a : (⟨2, ![M, N]⟩ : Shape).Idx → EReal) (a' : (⟨2, ![R, N]⟩ : Shape).Idx → EReal)
    (b : (⟨1, ![N]⟩ : Shape).Idx → EReal) (p : Fin R) (q : Fin M) (c : Fin N)
    (h : ∀ k : Fin N, a' (ix2 p k) = a (ix2 q k)) :
    biasLogSoftmax a' b (ix2 p c) = biasLogSoftmax a b (ix2 q c) :=
  logSoftmaxRows_of_rows (biased a b) (biased a' b) p q c
    (fun k => by show a' (ix2 p k) + b (ix1 k) = a (ix2 q k) + b (ix1 k); rw [h k])

end Cert.Gcn

end
-- ==== Proof.Network.lean ====
/-
  The whole network as one expression of the six argument arrays, on the extended reals:

    biasLogSoftmax (A₄₀ (hiddenTimes (A₁₂₈ (x · W₁)) b₁ W₂)) b₂

  with `A` the aggregation along the edge list's sources, targets and weights (`Cert.Gcn.Sparse`), the dense stages
  those of `Cert.Gcn`. Both programs are shown to compute this expression.
-/
import proofs.«149227_j18811956756716_1_alg».proof.Proof.Sparse
import proofs.«149227_j18811956756716_1_alg».proof.Proof.Layers

noncomputable section

namespace Cert.Gcn

open Cert.KernelIdeal Idealize.ShloMosaic Cert.Dense Cert.Gcn.Sparse

/-- The network as one expression of the six argument arrays. -/
def network (x : (⟨S100000x128, .f32⟩ : BufTy).Contents (Elt Ideal)) (e : (⟨S2x1600000, .i32⟩ : BufTy).Contents (Elt Ideal))
    (w1 : (⟨S128x128, .f32⟩ : BufTy).Contents (Elt Ideal)) (b1 : (⟨S128, .f32⟩ : BufTy).Contents (Elt Ideal))
    (w2 : (⟨S128x40, .f32⟩ : BufTy).Contents (Elt Ideal)) (b2 : (⟨S40, .f32⟩ : BufTy).Contents (Elt Ideal)) :
    (⟨S100000x40, .f32⟩ : BufTy).Contents (Elt Ideal) :=
  biasLogSoftmax (M := 100000) (N := 40)
    (aggregate40 (F := Ideal) (sources e) (targets e) (edgeWeight (sources e) (targets e))
      (hiddenTimes (M := 100000) (K := 128) (N := 40)
        (aggregate128 (F := Ideal) (sources e) (targets e) (edgeWeight (sources e) (targets e))
          (rowsTimes (M := 100000) (K := 128) (N := 128) x w1)) b1 w2)) b2

end Cert.Gcn

end
-- ==== Proof.LibRowsCols.lean ====
/-
  A contraction of a [R, K] array with a [K, N] array over their one shared axis, read at an entry.

  Both the matrix unit's product into a zero accumulator (the kernel's `tpu.matmul`) and the host's
  `dot_general` are, on the extended reals, the sum over the contraction index of left entry × right entry.
  When the record's left operand index at output (r, j) and contraction position k is (r, k), and the right one
  is (k, j), that sum is `rowsTimes a w (r, j) = ∑ k, a (r, k) · w (k, j)`. A change of float format is the
  identity on the extended reals, so the kernel's casts of its operands to bf16 do not appear.

  Only commutative-monoid facts about the sum are used: nothing here needs the entries to be finite.
-/
import Idealize.ShloMosaic.PureOps.Ideal.Laws
import Idealize.ShloMosaic.Lib.ValueIdx
import proofs.«149227_j18811956756716_1_alg».proof.Proof.LibRowsTimes

noncomputable section

namespace Cert.Dense

open Idealize.ShloMosaic Idealize.ShloMosaic.ValueIdx

variable {R K N : Nat} (d : DotDims ⟨2, ![R, K]⟩ ⟨2, ![K, N]⟩ ⟨2, ![R, N]⟩)

/-- The record contracts ONE axis, of extent `K`, and its operand indices at output index `j` and contraction
    position `k` are (j 0, k) on the left and (k, j 1) on the right: "rows times columns". -/
structure RowsCols : Prop where
  rank : d.contr.rank = 1
  size : d.contr.size ⟨0, by omega⟩ = K
  l0 : ∀ (j : (⟨2, ![R, N]⟩ : Shape).Idx) (k : d.contr.Idx), (d.lhsIdx j k 0).val = (j 0).val
  l1 : ∀ (j : (⟨2, ![R, N]⟩ : Shape).Idx) (k : d.contr.Idx), (d.lhsIdx j k 1).val = (k ⟨0, by omega⟩).val
  r0 : ∀ (j : (⟨2, ![R, N]⟩ : Shape).Idx) (k : d.contr.Idx), (d.rhsIdx j k 0).val = (k ⟨0, by omega⟩).val
  r1 : ∀ (j : (⟨2, ![R, N]⟩ : Shape).Idx) (k : d.contr.Idx), (d.rhsIdx j k 1).val = (j 1).val

variable {d}

/-- The left operand index, with the contraction position named by its one coordinate `k`, is (j 0, k). -/
theorem RowsCols.lhs (h : RowsCols d) (j : (⟨2, ![R, N]⟩ : Shape).Idx) (k : Fin K) :
    d.lhsIdx j ((contrEquiv1 d K h.rank h.size).symm k) = ix2 (j 0 : Fin R) k := by
  funext x; apply Fin.ext
  match x with
  | ⟨0, _⟩ => exact h.l0 j _
  | ⟨1, _⟩ => exact (h.l1 j _).trans (contrEquiv1_symm_val d K h.rank h.size k)

/-- The right operand index, likewise, is (k, j 1). -/
theorem RowsCols.rhs (h : RowsCols d) (j : (⟨2, ![R, N]⟩ : Shape).Idx) (k : Fin K) :
    d.rhsIdx j ((contrEquiv1 d K h.rank h.size).symm k) = ix2 k (j 1 : Fin N) := by
  funext x; apply Fin.ext
  match x with
  | ⟨0, _⟩ => exact (h.r0 j _).trans (contrEquiv1_symm_val d K h.rank h.size k)
  | ⟨1, _⟩ => exact h.r1 j _

/-- The matrix unit's product of `a` and `w` into the zero accumulator, at (r, j), is `∑ k, a (r, k) · w (k, j)`;
    the operands' float formats are whatever they are (a format is not seen on the extended reals). -/
theorem matmul_zero_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    FloatOps.matmul d prec a w (constant (F := Ideal) ⟨2, ![R, N]⟩ .f32 0x00000000#32) j = rowsTimes a w j := by
  rw [Ideal.matmul_constant_zero_apply]
  exact contraction_eq d h.rank h.size a w a w j j (fun k => congrArg a (h.lhs j k)) (fun k => congrArg w (h.rhs j k))

/-- The host's `dot_general` of `a` and `w`, at (r, j), is the same sum. -/
theorem dotGeneral_apply (h : RowsCols d) (prec : Option ContractPrecision) {φ₁ φ₂ : FTy}
    (a : FVec Ideal ⟨2, ![R, K]⟩ φ₁) (w : FVec Ideal ⟨2, ![K, N]⟩ φ₂) (j : (⟨2, ![R, N]⟩ : Shape).Idx) :
    Host.dotGeneral d prec a w j = rowsTimes a w j := by
  show FloatOps.dotGeneral d prec .single a w j = _
  rw [Ideal.dotGeneral_apply]
  exact contraction_eq d h.rank h.size a w a w j j (fun k => congrArg a (h.lhs j k)) (fun k => congrArg w (h.rhs j k))

/-- So the host's `dot_general` of two whole arrays IS their product, as one function. -/
theorem dotGeneral_eq (h : RowsCols d) (prec : Option ContractPrecision) {φ₁ φ₂ : FTy}
    (a : FVec Ideal ⟨2, ![R, K]⟩ φ₁) (w : FVec Ideal ⟨2, ![K, N]⟩ φ₂) :
    Host.dotGeneral d prec a w = rowsTimes a w := funext (dotGeneral_apply h prec a w)

end Cert.Dense

end
-- ==== Proof.Linear.lean ====
/-
  The first launch: `x · W₁`, 25 blocks of 4000 rows.

  At grid point `t` the body reads rows `4000 t … 4000 t + 3999` of `x` and all of `W₁`, and stores their product
  (a matrix unit's product into a zero accumulator; its operands' casts to bf16 are the identity on the extended
  reals). Rows of a product are products of rows, so what point `t` writes back is block `t` of the whole product
  `x · W₁`; the 25 blocks tile the 100000 rows, so after the launch the output array IS `x · W₁` — whatever the
  contents `V` of the buffers were when the launch was entered.
-/
import proofs.«149227_j18811956756716_1_alg».proof.Proof.Gen.KernelIdeal.Frame
import Idealize.ShloMosaic.Lib.Pipeline.Value
import proofs.«149227_j18811956756716_1_alg».proof.Proof.LibRowsCols
import proofs.«149227_j18811956756716_1_alg».proof.Proof.Layers

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx Cert.Dense Cert.Gcn
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The body's contraction is "rows times columns": one contracted axis of extent 128, the left operand read at
    (row, k) and the right at (k, column). -/
theorem rowsCols : RowsCols (R := 4000) (K := 128) (N := 128) dot_S4000x128_S128x128_S4000x128_1_0_0_1_n_n :=
  ⟨rfl, rfl, fun _ _ => rfl, fun _ _ => rfl, fun _ _ => rfl, fun _ _ => rfl⟩

/-- The body's stored value at an entry: the product of the two loaded blocks. -/
theorem payload_apply (x0 : Vec Ideal S4000x128 .f32) (x1 : Vec Ideal S128x128 .f32) (j : S4000x128.Idx) :
    k0_pay1 x0 x1 j = rowsTimes x0 x1 j := by
  unfold k0_pay1
  exact matmul_zero_apply rowsCols none (truncf .bf16 x0 bitsLt_bf16_f32) (truncf .bf16 x1 bitsLt_bf16_f32) j

/-- The printed index maps over the 25 grid points: the row-blocked windows sit at block (t, 0), the weight at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 25 :=
  (by decide +kernel : ∀ t : Fin grid0.N, _)

/-- Every block of rows is some point's. -/
theorem index_onto : ∀ q : Fin 25, ∃ t : Fin cfg0.N, win0_2.index t (0 : Fin 2) = q.val ∧ win0_2.index t (1 : Fin 2) = 0 :=
  (by decide +kernel : ∀ q : Fin 25, ∃ t : Fin grid0.N, win0_2.index t (0 : Fin 2) = q.val ∧ win0_2.index t (1 : Fin 2) = 0)

/-- The product the output array ends holding. -/
abbrev product (c : Dev nD) : S100000x128.Idx → EReal :=
  rowsTimes (M := 100000) (K := 128) (N := 128) (V c main_arg0) (V c main_arg2)

/-- What point `t` writes back is block `t` of the whole product. -/
theorem flushed_eq (c : Dev nD) (t : Fin cfg0.N) :
    (dat0 V c).flushed 2 t = ((cfg0.win 2).blk t).view.read (Elt Ideal) (product V c) := by
  show (cfg0.win 2).cut (grid0.coords t) ((dat0 V c).after 2 t) = _
  rw [after0_2]
  unfold out0_2
  rw [View.canon_unit_zero offsets_zero]
  simp only [View.ld_unit_zero (S := S4000x128) offsets_zero, View.ld_unit_zero (S := S128x128) offsets_zero]
  obtain ⟨e0, e1, e2, e3, e4, e5, -⟩ := index_facts t
  funext j
  show k0_pay1 (iblk0 V c 0 t) (iblk0 V c 1 t) j = product V c (((cfg0.win 2).blk t).view.emb j)
  refine (payload_apply _ _ j).trans ?_
  refine rowsTimes_of_rows (M := 100000) (R := 4000) (K := 128) (N := 128) (N' := 128) (V c main_arg0) (V c main_arg2) _ _ j _
    (fun k => ?_) (fun k => ?_)
  · show V c main_arg0 (((cfg0.win 0).blk t).view.emb (ix2 (j 0 : Fin 4000) k)) = V c main_arg0 _
    refine congrArg (V c main_arg0) (funext fun a => Fin.ext ?_)
    match a with
    | ⟨0, _⟩ =>
      show win0_0.index t (0 : Fin 2) * 4000 + 1 * (j 0).val = win0_2.index t (0 : Fin 2) * 4000 + 1 * (j 0).val
      omega
    | ⟨1, _⟩ =>
      show win0_0.index t (1 : Fin 2) * 128 + 1 * k.val = k.val
      omega
  · show V c main_arg2 (((cfg0.win 1).blk t).view.emb (ix2 k (j 1 : Fin 128))) = V c main_arg2 _
    refine congrArg (V c main_arg2) (funext fun a => Fin.ext ?_)
    match a with
    | ⟨0, _⟩ =>
      show win0_1.index t (0 : Fin 2) * 128 + 1 * k.val = k.val
      omega
    | ⟨1, _⟩ =>
      show win0_1.index t (1 : Fin 2) * 128 + 1 * (j 1).val = win0_2.index t (1 : Fin 2) * 128 + 1 * (j 1).val
      omega

/-- An index of the array is in point `t`'s block iff each coordinate is in the block's range on its axis. -/
theorem mem_block (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v29).slice (win0_2.rect t)).set ↔ _
  rw [View.set_slice_whole, Rect.mem_set_unit]
  exact Iff.rfl

/-- Row `r` lies in the block of point `r / 4000`: the blocks cover the array. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, q0, q1⟩ := index_onto ⟨(i 0).val / 4000, by omega⟩
  refine ⟨t, flush0_2 t, ?_⟩
  rw [mem_block]
  intro a
  match a with
  | ⟨0, _⟩ => show win0_2.index t (0 : Fin 2) * 4000 ≤ (i 0).val ∧ (i 0).val < win0_2.index t (0 : Fin 2) * 4000 + 4000; simp only [] at q0; omega
  | ⟨1, _⟩ => show win0_2.index t (1 : Fin 2) * 128 ≤ (i 1).val ∧ (i 1).val < win0_2.index t (1 : Fin 2) * 128 + 128; omega

/-- After the launch the output array is the whole product of the arrays the launch found. -/
theorem final (c : Dev nD) : (dat0 V c).arrAt 2 cfg0.N = product V c :=
  (dat0 V c).arrAt_eq_of_cover 2 (product V c) (fun t _ => flushed_eq V c t) covered

end Cert.KernelIdeal.Linear

end
-- ==== Proof.LibColumnLayout.lean ====
/-
  A vector kept as a one-column matrix, and that column repeated along the rows' other axis.

  The library reads a leading unit axis added to a vector ([a] as [1, a]) and one row broadcast down many
  ([1, b] to [a, b]). A reduction along the last axis that keeps its dimension produces the other arrangement:
  the [a] results become the single column of an [a, 1] matrix, and that column is then repeated b times to [a, b].
  Both read the vector at the row's coordinate.
-/
import Idealize.ShloMosaic.Lib.Pipeline.Value
import Idealize.ShloMosaic.Lib.ValueIdx
import Idealize.ShloMosaic.Lib.ValueLayout

namespace Idealize.ShloMosaic.ColumnLayout

open Idealize.ShloMosaic Idealize.ShloMosaic.ValueIdx

variable {α : Type}

/-- An `[a]` vector cast to the one column of an `[a, 1]` matrix reads, at `(i, u)`, the vector at `i`,
    whatever the unit coordinate `u`: the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` matrix broadcast to `[a, b]` reads, at `(p, c)`, its one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector kept as a column and repeated along the rows reads the vector at the row. -/
theorem column_broadcast_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- The row counterpart from the library's two lemmas: a vector given a leading unit axis and broadcast down the rows
    reads the vector at the column. -/
theorem row_broadcast_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

end Idealize.ShloMosaic.ColumnLayout
-- ==== Proof.Hidden.lean ====
/-
  The second launch: `relu (a + b₁) · W₂`, 25 blocks of 4000 rows.

  At grid point `t` the body reads rows `4000 t … 4000 t + 3999` of the aggregated first layer `a`, the whole bias and
  the whole weight; it adds the bias to every row, takes the maximum with zero and multiplies by the weight (a matrix
  unit's product into a zero accumulator; the casts to bf16 are the identity on the extended reals). Row `r` of the
  result depends on row `r` of `a` only, so what point `t` writes back is block `t` of `hiddenTimes a b₁ W₂`, and the
  25 blocks tile the 100000 rows: after the launch the output array IS `relu (a + b₁) · W₂` of the arrays the launch found.
-/
import proofs.«149227_j18811956756716_1_alg».proof.Proof.Gen.KernelIdeal.Frame
import Idealize.ShloMosaic.Lib.Pipeline.Value
import Idealize.ShloMosaic.Lib.ValueLayout
import proofs.«149227_j18811956756716_1_alg».proof.Proof.LibRowsCols
import proofs.«149227_j18811956756716_1_alg».proof.Proof.LibColumnLayout
import proofs.«149227_j18811956756716_1_alg».proof.Proof.Layers

set_option maxRecDepth 16384

noncomputable section

namespace Cert.KernelIdeal.Hidden

open Cert.KernelIdeal Cert.KernelIdeal.Gen Idealize.ShloMosaic Idealize.ShloMosaic.TcCoe Idealize.SL.Sem
open Idealize.ShloMosaic.ValueIdx Idealize.ShloMosaic.ColumnLayout Cert.Dense Cert.Gcn
open Idealize.ShloMosaic.Pipeline (Dat)

variable (V : (c : Dev nD) → (b : Ref sig .tc) → Buf (Elt Ideal) ((c : Thread nD τ).loc b))

theorem offsets_zero2 : (![0, 0] : Fin 2 → Nat) = fun _ => 0 := funext fun a => by fin_cases a <;> rfl
theorem offsets_zero1 : (![0] : Fin 1 → Nat) = fun _ => 0 := funext fun a => by fin_cases a; rfl

/-- The body's contraction is "rows times columns": one contracted axis of extent 128. -/
theorem rowsCols : RowsCols (R := 4000) (K := 128) (N := 40) dot_S4000x128_S128x40_S4000x40_1_0_0_1_n_n :=
  ⟨rfl, rfl, fun _ _ => rfl, fun _ _ => rfl, fun _ _ => rfl, fun _ _ => rfl⟩

/-- The body's stored value at an entry: bias, rectifier and product of the loaded blocks. -/
theorem payload_apply (x0 : Vec Ideal S4000x128 .f32) (x1 : Vec Ideal S128 .f32) (x2 : Vec Ideal S128x40 .f32) (p : Fin 4000) (c : Fin 40) :
    k1_pay1 x0 x1 x2 (ix2 p c) = hiddenTimes (M := 4000) (K := 128) (N := 40) x0 x1 x2 (ix2 p c) := by
  unfold k1_pay1
  refine (matmul_zero_apply rowsCols none _ _ (ix2 p c)).trans ?_
  refine rowsTimes_of_rows (M := 4000) (R := 4000) (K := 128) (N := 40) (N' := 40) (biasRelu x0 x1) x2 _ _ (ix2 p c) (ix2 p c) (fun k => ?_) (fun _ => rfl)
  show max (shapeCast S4000x128 x0 shapeCasts_S4000x128_S4000x128 (ix2 p k)
        + broadcastTo S4000x128 (shapeCast S1x128 x1 shapeCasts_S128_S1x128) broadcasts_S1x128_S4000x128 (ix2 p k))
      (Ideal.ofBits .f32 0x00000000#32)
    = max (x0 (ix2 p k) + x1 (ix1 k)) (Ideal.ofBits .f32 0x00000000#32)
  rw [shapeCast_self, row_broadcast_apply]

/-- The printed index maps over the 25 grid points: the row-blocked windows sit at block (t, 0), the bias and the weight at 0. -/
theorem index_facts : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- Every block of rows is some point's. -/
theorem index_onto : ∀ q : Fin 25, ∃ t : Fin cfg1.N, win1_3.index t (0 : Fin 2) = q.val ∧ win1_3.index t (1 : Fin 2) = 0 :=
  (by decide +kernel : ∀ q : Fin 25, ∃ t : Fin grid1.N, win1_3.index t (0 : Fin 2) = q.val ∧ win1_3.index t (1 : Fin 2) = 0)

/-- What the output array ends holding. -/
abbrev result (c : Dev nD) : S100000x40.Idx → EReal :=
  hiddenTimes (M := 100000) (K := 128) (N := 40) (V c main_v42) (V c main_arg3) (V c main_arg4)

/-- The bias window's block is the whole bias at every point. -/
theorem bias_block (c : Dev nD) (t : Fin cfg1.N) : iblk1 V c 1 t = V c main_arg3 := by
  obtain ⟨-, -, e2, -⟩ := index_facts t
  funext y
  show V c main_arg3 (((cfg1.win 1).blk t).view.emb y) = V c main_arg3 y
  refine congrArg (V c main_arg3) (funext fun a => Fin.ext ?_)
  match a with
  | ⟨0, _⟩ => show win1_1.index t (0 : Fin 1) * 128 + 1 * (y 0).val = (y 0).val; omega

/-- The weight window's block is the whole weight at every point. -/
theorem weight_block (c : Dev nD) (t : Fin cfg1.N) : iblk1 V c 2 t = V c main_arg4 := by
  obtain ⟨-, -, -, e3, e4, -⟩ := index_facts t
  funext y
  show V c main_arg4 (((cfg1.win 2).blk t).view.emb y) = V c main_arg4 y
  refine congrArg (V c main_arg4) (funext fun a => Fin.ext ?_)
  match a with
  | ⟨0, _⟩ => show win1_2.index t (0 : Fin 2) * 128 + 1 * (y 0).val = (y 0).val; omega
  | ⟨1, _⟩ => show win1_2.index t (1 : Fin 2) * 40 + 1 * (y 1).val = (y 1).val; omega

/-- What point `t` writes back is block `t` of the whole result. -/
theorem flushed_eq (c : Dev nD) (t : Fin cfg1.N) :
    (dat1 V c).flushed 3 t = ((cfg1.win 3).blk t).view.read (Elt Ideal) (result V c) := by
  show (cfg1.win 3).cut (grid1.coords t) ((dat1 V c).after 3 t) = _
  rw [after1_3]
  unfold out1_3
  rw [View.canon_unit_zero offsets_zero2]
  simp only [View.ld_unit_zero (S := S4000x128) offsets_zero2, View.ld_unit_zero (S := S128) offsets_zero1,
    View.ld_unit_zero (S := S128x40) offsets_zero2]
  rw [bias_block V c t, weight_block V c t]
  obtain ⟨e0, e1, -, -, -, e5, e6, ht⟩ := index_facts t
  funext j
  obtain ⟨p, cc, rfl⟩ : ∃ (p : Fin 4000) (cc : Fin 40), j = ix2 p cc := ⟨j 0, j 1, eq_ix2 j⟩
  have hq : t.val * 4000 + p.val < 100000 := by have := p.isLt; omega
  have hemb : ((cfg1.win 3).blk t).view.emb (ix2 p cc) = ix2 (⟨t.val * 4000 + p.val, hq⟩ : Fin 100000) cc :=
    funext fun a => Fin.ext (by
      match a with
      | ⟨0, _⟩ => show win1_3.index t (0 : Fin 2) * 4000 + 1 * p.val = t.val * 4000 + p.val; omega
      | ⟨1, _⟩ => show win1_3.index t (1 : Fin 2) * 40 + 1 * cc.val = cc.val; omega)
  show k1_pay1 (iblk1 V c 0 t) (V c main_arg3) (V c main_arg4) (ix2 p cc) = result V c (((cfg1.win 3).blk t).view.emb (ix2 p cc))
  rw [hemb]
  refine (payload_apply _ _ _ p cc).trans ?_
  refine hiddenTimes_of_rows (M := 100000) (R := 4000) (K := 128) (N := 40) (V c main_v42) (iblk1 V c 0 t) (V c main_arg3) (V c main_arg4) p _ cc (fun k => ?_)
  show V c main_v42 (((cfg1.win 0).blk t).view.emb (ix2 p k)) = V c main_v42 _
  refine congrArg (V c main_v42) (funext fun a => Fin.ext ?_)
  match a with
  | ⟨0, _⟩ => show win1_0.index t (0 : Fin 2) * 4000 + 1 * p.val = t.val * 4000 + p.val; omega
  | ⟨1, _⟩ => show win1_0.index t (1 : Fin 2) * 128 + 1 * k.val = k.val; omega

/-- An index of the array is in point `t`'s block iff each coordinate is in the block's range on its axis. -/
theorem mem_block (t : Fin cfg1.N) (i : S100000x40.Idx) :
    i ∈ ((cfg1.win 3).blk t).view.set ↔ ∀ a : Fin 2, win1_3.index t a * S4000x40.size a ≤ (i a).val ∧ (i a).val < win1_3.index t a * S4000x40.size a + S4000x40.size a := by
  show i ∈ ((View.whole main_v43).slice (win1_3.rect t)).set ↔ _
  rw [View.set_slice_whole, Rect.mem_set_unit]
  exact Iff.rfl

/-- Row `r` lies in the block of point `r / 4000`: the blocks cover the array. -/
theorem covered (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  obtain ⟨t, q0, q1⟩ := index_onto ⟨(i 0).val / 4000, by omega⟩
  refine ⟨t, flush1_3 t, ?_⟩
  rw [mem_block]
  intro a
  match a with
  | ⟨0, _⟩ => show win1_3.index t (0 : Fin 2) * 4000 ≤ (i 0).val ∧ (i 0).val < win1_3.index t (0 : Fin 2) * 4000 + 4000; simp only [] at q0; omega
  | ⟨1, _⟩ => show win1_3.index t (1 : Fin 2) * 40 ≤ (i 1).val ∧ (i 1).val < win1_3.index t (1 : Fin 2) * 40 + 40; omega

/-- After the launch the output array is `relu (a + b₁) · W₂` of the arrays the launch found. -/
theorem final (c : Dev nD) : (dat1 V c).arrAt 3 cfg1.N = result V c :=
  (dat1 V c).arrAt_eq_of_cover 3 (result V c) (fun t _ => flushed_eq V c t) covered

end Cert.KernelIdeal.Hidden

end
-- ==== Proof.LogSoftmax.lean ====
/-
  The third launch: the bias, then the row-wise log-softmax, 25 blocks of 4000 rows.

  At grid point `t` the body reads rows `4000 t … 4000 t + 3999` of the aggregated second layer `a` and the whole bias.
  With `v = a + b₂` it takes each row's maximum `m` (a lane reduction started from the f32 word of −∞), the row's sum
  `s` of `exp (v - m)` (a lane reduction started from zero), and stores `v - m - log s`; the maximum and the logarithm
  are kept as a one-column matrix and repeated along the row. That is `biasLogSoftmax` of the block, row by row, and
  a row of the result depends on the same row of `a` only: what point `t` writes back is block `t` of
  `biasLogSoftmax a b₂`, and the 25 blocks tile the 100000 rows.
-/
import proofs.«149227_j18811956756716_1_alg».proof.Proof.Gen.KernelIdeal.Frame
import Idealize.ShloMosaic.Lib.Pipeline.Value
import Idealize.ShloMosaic.Lib.ValueLayout
import proofs.«149227_j18811956756716_1_alg».proof.Proof.LibColumnLayout
import proofs.«149227_j18811956756716_1_alg».proof.Proof.Layers

set_option maxRecDepth 16384

noncomputable section

namespace Cert.KernelIdeal.LogSoftmax

open Cert.KernelIdeal Cert.KernelIdeal.Gen Idealize.ShloMosaic Idealize.ShloMosaic.TcCoe Idealize.SL.Sem
open Idealize.ShloMosaic.ValueIdx Idealize.ShloMosaic.ColumnLayout Cert.Gcn
open Idealize.ShloMosaic.Pipeline (Dat)

variable (V : (c : Dev nD) → (b : Ref sig .tc) → Buf (Elt Ideal) ((c : Thread nD τ).loc b))

theorem offsets_zero2 : (![0, 0] : Fin 2 → Nat) = fun _ => 0 := funext fun a => by fin_cases a <;> rfl
theorem offsets_zero1 : (![0] : Fin 1 → Nat) = fun _ => 0 := funext fun a => by fin_cases a; rfl

/-! ## The two lane reductions, read along a row -/

/-- The index the reduction over the lanes inserts at position `k` of row `p` is `(p, k)`. -/
theorem lift_row (p : Fin 4000) (k : Fin 40) : reduces_S4000x40_S4000.lift (ix1 p) k = ix2 p k :=
  funext fun a => Fin.ext (by match a with | ⟨0, _⟩ => rfl | ⟨1, _⟩ => rfl)

/-- A lane maximum started from the word of −∞, read at row `p`: the row's maximum. -/
theorem lane_max (v : FVec Ideal S4000x40 .f32) (hφ : FKind.Formats .f32)
    (hacc : (0xFF800000#32 : BitVec FTy.f32.bits) = FKind.maximumf.neutral .f32 hφ) (p : Fin 4000) :
    multiReduction .maximumf [1] S4000 v 0xFF800000#32 reduces_S4000x40_S4000 hφ hacc (ix1 p) = rowMax (M := 4000) (N := 40) v p :=
  (Ideal.multiReduction_maximumf_single v 0xFF800000#32 reduces_S4000x40_S4000 hφ hacc (ix1 p)).trans
    (congrArg (fun f : Fin 40 → EReal => (Finset.univ : Finset (Fin 40)).fold max (Ideal.ofBits .f32 0xFF800000#32) f)
      (funext fun k => congrArg v (lift_row p k)))

/-- A lane sum started from zero, read at row `p`: the row's sum. -/
theorem lane_sum (u : FVec Ideal S4000x40 .f32) (hφ : FKind.Formats .f32)
    (hacc : (0x00000000#32 : BitVec FTy.f32.bits) = FKind.add.neutral .f32 hφ) (p : Fin 4000) :
    multiReduction .add [1] S4000 u 0x00000000#32 reduces_S4000x40_S4000 hφ hacc (ix1 p) = ∑ k : Fin 40, u (ix2 p k) :=
  (Ideal.multiReduction_add_single u 0x00000000#32 reduces_S4000x40_S4000 hφ hacc (ix1 p)).trans
    (Finset.sum_congr rfl fun k _ => congrArg u (lift_row p k))

/-! ## The body's stored value -/

/-- The body's arithmetic after the bias, on an arbitrary block `v`: `v - m - log s` along each row. -/
theorem normalised_apply (v : FVec Ideal S4000x40 .f32) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin 4000) (c : Fin 40) :
    subf (subf v (broadcastTo S4000x40 (shapeCast S4000x1 (multiReduction .maximumf [1] S4000 v 0xFF800000#32 reduces_S4000x40_S4000 hφ hmax) shapeCasts_S4000_S4000x1) broadcasts_S4000x1_S4000x40))
      (broadcastTo S4000x40 (log (shapeCast S4000x1 (multiReduction .add [1] S4000
        (exp (subf v (broadcastTo S4000x40 (shapeCast S4000x1 (multiReduction .maximumf [1] S4000 v 0xFF800000#32 reduces_S4000x40_S4000 hφ hmax) shapeCasts_S4000_S4000x1) broadcasts_S4000x1_S4000x40)))
        0x00000000#32 reduces_S4000x40_S4000 hφ hadd) shapeCasts_S4000_S4000x1)) broadcasts_S4000x1_S4000x40) (ix2 p c)
      = logSoftmaxRows (M := 4000) (N := 40) v (ix2 p c) := by
  have hm : ∀ k : Fin 40, broadcastTo S4000x40 (shapeCast S4000x1 (multiReduction .maximumf [1] S4000 v 0xFF800000#32 reduces_S4000x40_S4000 hφ hmax) shapeCasts_S4000_S4000x1) broadcasts_S4000x1_S4000x40 (ix2 p k)
      = rowMax (M := 4000) (N := 40) v p := fun k =>
    (column_broadcast_apply _ shapeCasts_S4000_S4000x1 broadcasts_S4000x1_S4000x40 p k).trans (lane_max v hφ hmax p)
  show v (ix2 p c) - _ - _ = v (ix2 p c) - rowMax (M := 4000) (N := 40) v p - Ideal.log (rowExpSum (M := 4000) (N := 40) v p)
  rw [hm c]
  refine congrArg (fun z => v (ix2 p c) - rowMax (M := 4000) (N := 40) v p - z) ?_
  refine (broadcastTo_a1_ab_apply _ broadcasts_S4000x1_S4000x40 p c).trans ?_
  show Ideal.log (shapeCast S4000x1 _ shapeCasts_S4000_S4000x1 (ix2 p (0 : Fin 1))) = Ideal.log (rowExpSum (M := 4000) (N := 40) v p)
  refine congrArg Ideal.log ?_
  refine (shapeCast_a_a1_apply _ shapeCasts_S4000_S4000x1 p 0).trans ?_
  refine (lane_sum _ hφ hadd p).trans ?_
  refine Finset.sum_congr rfl fun k _ => ?_
  show Ideal.exp (v (ix2 p k) - _) = Ideal.exp (v (ix2 p k) - rowMax (M := 4000) (N := 40) v p)
  rw [hm k]

/-- The bias added to every row of the block. -/
theorem biased_eq (x0 : Vec Ideal S4000x40 .f32) (x1 : Vec Ideal S40 .f32) :
    (addf (shapeCast S4000x40 x0 shapeCasts_S4000x40_S4000x40) (broadcastTo S4000x40 (shapeCast S1x40 x1 shapeCasts_S40_S1x40) broadcasts_S1x40_S4000x40) : FVec Ideal S4000x40 .f32)
      = biased (M := 4000) (N := 40) x0 x1 := by
  funext i
  obtain ⟨p, c, rfl⟩ : ∃ (p : Fin 4000) (c : Fin 40), i = ix2 p c := ⟨i 0, i 1, eq_ix2 i⟩
  show shapeCast S4000x40 x0 shapeCasts_S4000x40_S4000x40 (ix2 p c)
      + broadcastTo S4000x40 (shapeCast S1x40 x1 shapeCasts_S40_S1x40) broadcasts_S1x40_S4000x40 (ix2 p c) = x0 (ix2 p c) + x1 (ix1 c)
  rw [shapeCast_self, row_broadcast_apply]

/-- The body's stored value at an entry: the bias and the row-wise log-softmax of the loaded block. -/
theorem payload_apply (x0 : Vec Ideal S4000x40 .f32) (x1 : Vec Ideal S40 .f32) (p : Fin 4000) (c : Fin 40) :
    k2_pay1 x0 x1 (ix2 p c) = biasLogSoftmax (M := 4000) (N := 40) x0 x1 (ix2 p c) := by
  unfold k2_pay1
  dsimp only
  rw [biased_eq]
  exact normalised_apply (biased (M := 4000) (N := 40) x0 x1) _ _ _ p c

/-! ## From blocks to the array -/

/-- The printed index maps over the 25 grid points: the row-blocked windows sit at block (t, 0), the bias at 0. -/
theorem index_facts : ∀ t : Fin cfg2.N, win2_0.index t (0 : Fin 2) = t.val ∧ win2_0.index t (1 : Fin 2) = 0
    ∧ win2_1.index t (0 : Fin 1) = 0
    ∧ win2_2.index t (0 : Fin 2) = t.val ∧ win2_2.index t (1 : Fin 2) = 0 ∧ t.val < 25 :=
  (by decide +kernel : ∀ t : Fin grid2.N, _)

/-- Every block of rows is some point's. -/
theorem index_onto : ∀ q : Fin 25, ∃ t : Fin cfg2.N, win2_2.index t (0 : Fin 2) = q.val ∧ win2_2.index t (1 : Fin 2) = 0 :=
  (by decide +kernel : ∀ q : Fin 25, ∃ t : Fin grid2.N, win2_2.index t (0 : Fin 2) = q.val ∧ win2_2.index t (1 : Fin 2) = 0)

/-- What the output array ends holding. -/
abbrev result (c : Dev nD) : S100000x40.Idx → EReal :=
  biasLogSoftmax (M := 100000) (N := 40) (V c main_v56) (V c main_arg5)

/-- The bias window's block is the whole bias at every point. -/
theorem bias_block (c : Dev nD) (t : Fin cfg2.N) : iblk2 V c 1 t = V c main_arg5 := by
  obtain ⟨-, -, e2, -⟩ := index_facts t
  funext y
  show V c main_arg5 (((cfg2.win 1).blk t).view.emb y) = V c main_arg5 y
  refine congrArg (V c main_arg5) (funext fun a => Fin.ext ?_)
  match a with
  | ⟨0, _⟩ => show win2_1.index t (0 : Fin 1) * 40 + 1 * (y 0).val = (y 0).val; omega

/-- What point `t` writes back is block `t` of the whole result. -/
theorem flushed_eq (c : Dev nD) (t : Fin cfg2.N) :
    (dat2 V c).flushed 2 t = ((cfg2.win 2).blk t).view.read (Elt Ideal) (result V c) := by
  show (cfg2.win 2).cut (grid2.coords t) ((dat2 V c).after 2 t) = _
  rw [after2_2]
  unfold out2_2
  rw [View.canon_unit_zero offsets_zero2]
  simp only [View.ld_unit_zero (S := S4000x40) offsets_zero2, View.ld_unit_zero (S := S40) offsets_zero1]
  rw [bias_block V c t]
  obtain ⟨e0, e1, -, e3, e4, ht⟩ := index_facts t
  funext j
  obtain ⟨p, cc, rfl⟩ : ∃ (p : Fin 4000) (cc : Fin 40), j = ix2 p cc := ⟨j 0, j 1, eq_ix2 j⟩
  have hq : t.val * 4000 + p.val < 100000 := by have := p.isLt; omega
  have hemb : ((cfg2.win 2).blk t).view.emb (ix2 p cc) = ix2 (⟨t.val * 4000 + p.val, hq⟩ : Fin 100000) cc :=
    funext fun a => Fin.ext (by
      match a with
      | ⟨0, _⟩ => show win2_2.index t (0 : Fin 2) * 4000 + 1 * p.val = t.val * 4000 + p.val; omega
      | ⟨1, _⟩ => show win2_2.index t (1 : Fin 2) * 40 + 1 * cc.val = cc.val; omega)
  show k2_pay1 (iblk2 V c 0 t) (V c main_arg5) (ix2 p cc) = result V c (((cfg2.win 2).blk t).view.emb (ix2 p cc))
  rw [hemb]
  refine (payload_apply _ _ p cc).trans ?_
  refine biasLogSoftmax_of_rows (M := 100000) (R := 4000) (N := 40) (V c main_v56) (iblk2 V c 0 t) (V c main_arg5) p _ cc (fun k => ?_)
  show V c main_v56 (((cfg2.win 0).blk t).view.emb (ix2 p k)) = V c main_v56 _
  refine congrArg (V c main_v56) (funext fun a => Fin.ext ?_)
  match a with
  | ⟨0, _⟩ => show win2_0.index t (0 : Fin 2) * 4000 + 1 * p.val = t.val * 4000 + p.val; omega
  | ⟨1, _⟩ => show win2_0.index t (1 : Fin 2) * 40 + 1 * k.val = k.val; omega

/-- An index of the array is in point `t`'s block iff each coordinate is in the block's range on its axis. -/
theorem mem_block (t : Fin cfg2.N) (i : S100000x40.Idx) :
    i ∈ ((cfg2.win 2).blk t).view.set ↔ ∀ a : Fin 2, win2_2.index t a * S4000x40.size a ≤ (i a).val ∧ (i a).val < win2_2.index t a * S4000x40.size a + S4000x40.size a := by
  show i ∈ ((View.whole main_v57).slice (win2_2.rect t)).set ↔ _
  rw [View.set_slice_whole, Rect.mem_set_unit]
  exact Iff.rfl

/-- Row `r` lies in the block of point `r / 4000`: the blocks cover the array. -/
theorem covered (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  obtain ⟨t, q0, q1⟩ := index_onto ⟨(i 0).val / 4000, by omega⟩
  refine ⟨t, flush2_2 t, ?_⟩
  rw [mem_block]
  intro a
  match a with
  | ⟨0, _⟩ => show win2_2.index t (0 : Fin 2) * 4000 ≤ (i 0).val ∧ (i 0).val < win2_2.index t (0 : Fin 2) * 4000 + 4000; simp only [] at q0; omega
  | ⟨1, _⟩ => show win2_2.index t (1 : Fin 2) * 40 ≤ (i 1).val ∧ (i 1).val < win2_2.index t (1 : Fin 2) * 40 + 40; omega

/-- After the launch the output array is the bias and row-wise log-softmax of the arrays the launch found. -/
theorem final (c : Dev nD) : (dat2 V c).arrAt 2 cfg2.N = result V c :=
  (dat2 V c).arrAt_eq_of_cover 2 (result V c) (fun t _ => flushed_eq V c t) covered

end Cert.KernelIdeal.LogSoftmax

end
-- ==== Proof.Composed.lean ====
/-
  What the kernel program's result buffer holds after the run, as one expression of the six arguments.

  The run's last boundary contents `Gen.W6` is a fold: a stretch of host operations (the edge lists with self loops and
  the edge weights), the first launch (`x · W₁`), a stretch (aggregation of 128 features), the second launch
  (`relu (· + b₁) · W₂`), a stretch (aggregation of 40 features), the third launch (bias and row-wise log-softmax).
  Each stretch is read over the contents it starts from, each launch's output array by its whole-array function of
  the arrays it found, and a buffer nothing in between writes is carried unchanged. Composed:

    result = biasLogSoftmax (A₄₀ (hiddenTimes (A₁₂₈ (x · W₁)) b₁ W₂)) b₂,

  `A` the aggregation along the edge list's sources, targets and weights.
-/
import proofs.«149227_j18811956756716_1_alg».proof.Proof.Gen.KernelIdeal.Frame
import Idealize.ShloMosaic.Lib.StableHlo.Run
import proofs.«149227_j18811956756716_1_alg».proof.Proof.Sparse
import proofs.«149227_j18811956756716_1_alg».proof.Proof.Network
import proofs.«149227_j18811956756716_1_alg».proof.Proof.Linear
import proofs.«149227_j18811956756716_1_alg».proof.Proof.Hidden
import proofs.«149227_j18811956756716_1_alg».proof.Proof.LogSoftmax

set_option maxRecDepth 16384

noncomputable section

namespace Cert.KernelIdeal.Composed

open Cert.KernelIdeal Cert.KernelIdeal.Gen Idealize.ShloMosaic Idealize.ShloMosaic.TcCoe Idealize.SL.Sem
open Idealize.ShloMosaic.StableHlo Cert.Dense Cert.Gcn Cert.Gcn.Sparse

variable (m : (ℓ : Loc nD τ sig) → Buf (Elt Ideal) ℓ) (ρ : Dev nD → PrngReg) (c : Dev nD)

/-! ## The first stretch of host operations, from the launch memory -/

theorem sources1 : W1 m ρ c (Proc.devRef .tc main_v3) = sources (F := Ideal) (m ((c : Thread nD τ).loc main_arg1)) := by
  show StableHlo.after hostOps0 (W0 m ρ c) (Proc.devRef .tc main_v3) = _
  after_results_simp <;> rfl

theorem targets1 : W1 m ρ c (Proc.devRef .tc main_v6) = targets (F := Ideal) (m ((c : Thread nD τ).loc main_arg1)) := by
  show StableHlo.after hostOps0 (W0 m ρ c) (Proc.devRef .tc main_v6) = _
  after_results_simp <;> rfl

theorem weights1 : W1 m ρ c (Proc.devRef .tc main_v28)
    = edgeWeight (F := Ideal) (sources (m ((c : Thread nD τ).loc main_arg1))) (targets (m ((c : Thread nD τ).loc main_arg1))) := by
  show StableHlo.after hostOps0 (W0 m ρ c) (Proc.devRef .tc main_v28) = _
  after_results_simp <;> rfl

theorem arg0_1 : W1 m ρ c (Proc.devRef .tc main_arg0) = (m ((c : Thread nD τ).loc main_arg0)) := by
  show StableHlo.after hostOps0 (W0 m ρ c) (Proc.devRef .tc main_arg0) = _
  after_results_simp <;> rfl

theorem arg2_1 : W1 m ρ c (Proc.devRef .tc main_arg2) = (m ((c : Thread nD τ).loc main_arg2)) := by
  show StableHlo.after hostOps0 (W0 m ρ c) (Proc.devRef .tc main_arg2) = _
  after_results_simp <;> rfl

theorem arg3_1 : W1 m ρ c (Proc.devRef .tc main_arg3) = (m ((c : Thread nD τ).loc main_arg3)) := by
  show StableHlo.after hostOps0 (W0 m ρ c) (Proc.devRef .tc main_arg3) = _
  after_results_simp <;> rfl

theorem arg4_1 : W1 m ρ c (Proc.devRef .tc main_arg4) = (m ((c : Thread nD τ).loc main_arg4)) := by
  show StableHlo.after hostOps0 (W0 m ρ c) (Proc.devRef .tc main_arg4) = _
  after_results_simp <;> rfl

theorem arg5_1 : W1 m ρ c (Proc.devRef .tc main_arg5) = (m ((c : Thread nD τ).loc main_arg5)) := by
  show StableHlo.after hostOps0 (W0 m ρ c) (Proc.devRef .tc main_arg5) = _
  after_results_simp <;> rfl

/-! ## The first launch -/

theorem product2 : W2 m ρ c (Proc.devRef .tc main_v29)
    = rowsTimes (M := 100000) (K := 128) (N := 128) (m ((c : Thread nD τ).loc main_arg0)) (m ((c : Thread nD τ).loc main_arg2)) := by
  refine (W2_arr m ρ c 2).trans ((Linear.final (V1 m ρ) c).trans ?_)
  show rowsTimes (M := 100000) (K := 128) (N := 128) (W1 m ρ c (Proc.devRef .tc main_arg0)) (W1 m ρ c (Proc.devRef .tc main_arg2)) = _
  rw [arg0_1, arg2_1]

theorem v3_2 : W2 m ρ c (Proc.devRef .tc main_v3) = W1 m ρ c (Proc.devRef .tc main_v3) := W2_of_ne m ρ c main_v3 (by decide)

theorem v6_2 : W2 m ρ c (Proc.devRef .tc main_v6) = W1 m ρ c (Proc.devRef .tc main_v6) := W2_of_ne m ρ c main_v6 (by decide)

theorem v28_2 : W2 m ρ c (Proc.devRef .tc main_v28) = W1 m ρ c (Proc.devRef .tc main_v28) := W2_of_ne m ρ c main_v28 (by decide)

theorem arg3_2 : W2 m ρ c (Proc.devRef .tc main_arg3) = W1 m ρ c (Proc.devRef .tc main_arg3) := W2_of_ne m ρ c main_arg3 (by decide)

theorem arg4_2 : W2 m ρ c (Proc.devRef .tc main_arg4) = W1 m ρ c (Proc.devRef .tc main_arg4) := W2_of_ne m ρ c main_arg4 (by decide)

theorem arg5_2 : W2 m ρ c (Proc.devRef .tc main_arg5) = W1 m ρ c (Proc.devRef .tc main_arg5) := W2_of_ne m ρ c main_arg5 (by decide)

/-! ## The second stretch: aggregation of 128 features -/

theorem aggregated3 : W3 m ρ c (Proc.devRef .tc main_v42)
    = aggregate128 (F := Ideal) (W2 m ρ c (Proc.devRef .tc main_v3)) (W2 m ρ c (Proc.devRef .tc main_v6)) (W2 m ρ c (Proc.devRef .tc main_v28)) (W2 m ρ c (Proc.devRef .tc main_v29)) := by
  show StableHlo.after hostOps1 (W2 m ρ c) (Proc.devRef .tc main_v42) = _
  after_results_simp <;> rfl

theorem v3_3 : W3 m ρ c (Proc.devRef .tc main_v3) = W2 m ρ c (Proc.devRef .tc main_v3) := by
  show StableHlo.after hostOps1 (W2 m ρ c) (Proc.devRef .tc main_v3) = _
  after_results_simp <;> rfl

theorem v6_3 : W3 m ρ c (Proc.devRef .tc main_v6) = W2 m ρ c (Proc.devRef .tc main_v6) := by
  show StableHlo.after hostOps1 (W2 m ρ c) (Proc.devRef .tc main_v6) = _
  after_results_simp <;> rfl

theorem v28_3 : W3 m ρ c (Proc.devRef .tc main_v28) = W2 m ρ c (Proc.devRef .tc main_v28) := by
  show StableHlo.after hostOps1 (W2 m ρ c) (Proc.devRef .tc main_v28) = _
  after_results_simp <;> rfl

theorem arg3_3 : W3 m ρ c (Proc.devRef .tc main_arg3) = W2 m ρ c (Proc.devRef .tc main_arg3) := by
  show StableHlo.after hostOps1 (W2 m ρ c) (Proc.devRef .tc main_arg3) = _
  after_results_simp <;> rfl

theorem arg4_3 : W3 m ρ c (Proc.devRef .tc main_arg4) = W2 m ρ c (Proc.devRef .tc main_arg4) := by
  show StableHlo.after hostOps1 (W2 m ρ c) (Proc.devRef .tc main_arg4) = _
  after_results_simp <;> rfl

theorem arg5_3 : W3 m ρ c (Proc.devRef .tc main_arg5) = W2 m ρ c (Proc.devRef .tc main_arg5) := by
  show StableHlo.after hostOps1 (W2 m ρ c) (Proc.devRef .tc main_arg5) = _
  after_results_simp <;> rfl

/-! ## The second launch -/

theorem hidden4 : W4 m ρ c (Proc.devRef .tc main_v43)
    = hiddenTimes (M := 100000) (K := 128) (N := 40) (W3 m ρ c (Proc.devRef .tc main_v42)) (W3 m ρ c (Proc.devRef .tc main_arg3)) (W3 m ρ c (Proc.devRef .tc main_arg4)) :=
  (W4_arr m ρ c 3).trans (Hidden.final (V3 m ρ) c)

theorem v3_4 : W4 m ρ c (Proc.devRef .tc main_v3) = W3 m ρ c (Proc.devRef .tc main_v3) := W4_of_ne m ρ c main_v3 (by decide)

theorem v6_4 : W4 m ρ c (Proc.devRef .tc main_v6) = W3 m ρ c (Proc.devRef .tc main_v6) := W4_of_ne m ρ c main_v6 (by decide)

theorem v28_4 : W4 m ρ c (Proc.devRef .tc main_v28) = W3 m ρ c (Proc.devRef .tc main_v28) := W4_of_ne m ρ c main_v28 (by decide)

theorem arg5_4 : W4 m ρ c (Proc.devRef .tc main_arg5) = W3 m ρ c (Proc.devRef .tc main_arg5) := W4_of_ne m ρ c main_arg5 (by decide)

/-! ## The third stretch: aggregation of 40 features -/

theorem aggregated5 : W5 m ρ c (Proc.devRef .tc main_v56)
    = aggregate40 (F := Ideal) (W4 m ρ c (Proc.devRef .tc main_v3)) (W4 m ρ c (Proc.devRef .tc main_v6)) (W4 m ρ c (Proc.devRef .tc main_v28)) (W4 m ρ c (Proc.devRef .tc main_v43)) := by
  show StableHlo.after hostOps2 (W4 m ρ c) (Proc.devRef .tc main_v56) = _
  after_results_simp <;> rfl

theorem arg5_5 : W5 m ρ c (Proc.devRef .tc main_arg5) = W4 m ρ c (Proc.devRef .tc main_arg5) := by
  show StableHlo.after hostOps2 (W4 m ρ c) (Proc.devRef .tc main_arg5) = _
  after_results_simp <;> rfl

/-! ## The third launch, and the whole -/

theorem logits6 : W6 m ρ c (Proc.devRef .tc main_v57)
    = biasLogSoftmax (M := 100000) (N := 40) (W5 m ρ c (Proc.devRef .tc main_v56)) (W5 m ρ c (Proc.devRef .tc main_arg5)) :=
  (W6_arr m ρ c 2).trans (LogSoftmax.final (V5 m ρ) c)

/-- After the run the result buffer holds the network of the launch memory's six arguments. -/
theorem result_eq : W6 m ρ c (Proc.devRef .tc main_v57)
    = network (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [logits6, aggregated5, arg5_5, arg5_4, arg5_3, arg5_2, arg5_1, hidden4, v3_4, v6_4, v28_4, v3_3, v6_3, v28_3,
    aggregated3, arg3_3, arg4_3, arg3_2, arg4_2, arg3_1, arg4_1, v3_2, v6_2, v28_2, product2, sources1, targets1, weights1]
  rfl

end Cert.KernelIdeal.Composed

end
-- ==== Proof.LibHostStretches.lean ====
/-
  A straight line of host operations read in stretches, and a value carried through an outlined call.

  * `after_append`, `after_split`: what a line of host operations leaves (the fold `StableHlo.after` of the operations
    over the contents it starts from) is what its last part leaves from what its first part leaves. So a long line is
    read a stretch at a time, each stretch over an ARBITRARY starting valuation: the terms stay small, and values
    several later operations consume are named once (at the stretch's start) instead of being copied into every use.
  * `ofBuf_toBuf`: the operations of an outlined function (`func.call`) read and write their operands through typed
    references, a transport along the buffer's type equation each way. A value written that way and read back at
    its own type is the value. Rewriting with it first leaves a line with outlined calls comparable, by reading,
    with the same operations written without the calls.

  General in the topology, the reference signature and the element values.
-/
import Idealize.ShloMosaic.Lib.StableHlo.Run

namespace Cert.HostLine

open Idealize.ShloMosaic Idealize.ShloMosaic.StableHlo

variable {τ : Topo} {sig : RefSig} {Val : EltTy → Type}

/-- Two stretches run one after the other are their concatenation run as one. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line of operations run as its first `n` and then the rest. -/
theorem after_split (n : Nat) (l : List (HloOp τ sig Val)) (V : Valuation τ sig Val) :
    after l V = after (l.drop n) (after (l.take n) V) := by
  rw [← after_append, List.take_append_drop]

/-- A value written to a typed reference's buffer and read back at the value's type is the value. -/
theorem ofBuf_toBuf {T : BufTy} (x : TRef sig T) (v : T.Contents Val) : x.ofBuf (x.toBuf v) = v := by
  obtain ⟨r, te, od, us⟩ := x
  subst te
  rfl

end Cert.HostLine
-- ==== Proof.HostProducts.lean ====
/-
  The reference's two products and its bias/rectifier stage are the specification's functions: its first `dot_general` is
  `x · W₁`; its bias (kept as a one-row matrix and repeated down the rows), `relu` (a maximum with a zero array) and
  second `dot_general` are `hiddenTimes a b₁ W₂ = relu (a + b₁) · W₂`.
-/
import proofs.«149227_j18811956756716_1_alg».proof.Proof.Gen.ReferenceIdeal
import Idealize.ShloMosaic.Lib.Pipeline.Value
import Idealize.ShloMosaic.Lib.ValueLayout
import proofs.«149227_j18811956756716_1_alg».proof.Proof.LibRowsCols
import proofs.«149227_j18811956756716_1_alg».proof.Proof.Layers

set_option maxRecDepth 16384

noncomputable section

namespace Cert.ReferenceIdeal.Dense

open Cert.ReferenceIdeal Cert.ReferenceIdeal.Gen Idealize.ShloMosaic
open Idealize.ShloMosaic.ValueIdx Cert.Dense Cert.Gcn

/-! ## The two products -/

theorem rowsCols128 : RowsCols (R := 100000) (K := 128) (N := 128) dot_S100000x128_S128x128_S100000x128_1_0_0_1_n_n :=
  ⟨rfl, rfl, fun _ _ => rfl, fun _ _ => rfl, fun _ _ => rfl, fun _ _ => rfl⟩

theorem rowsCols40 : RowsCols (R := 100000) (K := 128) (N := 40) dot_S100000x128_S128x40_S100000x40_1_0_0_1_n_n :=
  ⟨rfl, rfl, fun _ _ => rfl, fun _ _ => rfl, fun _ _ => rfl, fun _ _ => rfl⟩

/-- The first layer's `dot_general` is the product. -/
theorem product_eq (x : FVec Ideal S100000x128 .f32) (w : FVec Ideal S128x128 .f32) :
    Host.dotGeneral dot_S100000x128_S128x128_S100000x128_1_0_0_1_n_n none x w = rowsTimes (M := 100000) (K := 128) (N := 128) x w :=
  dotGeneral_eq rowsCols128 none x w

/-! ## Bias, rectifier, product -/

/-- A bias kept as a one-row matrix and repeated down the rows reads the bias at the column. -/
theorem bias_rows_apply {K : Nat} {M : Nat} (b : (⟨1, ![K]⟩ : Shape).Idx → EReal)
    (h₁ : (⟨1, ![K]⟩ : Shape).BroadcastsInDim ⟨2, ![1, K]⟩ ![1]) (h₂ : (⟨2, ![1, K]⟩ : Shape).BroadcastsInDim ⟨2, ![M, K]⟩ ![0, 1])
    (p : Fin M) (k : Fin K) :
    broadcastInDim ⟨2, ![M, K]⟩ ![0, 1] h₂ (broadcastInDim ⟨2, ![1, K]⟩ ![1] h₁ b) (ix2 p k) = b (ix1 k) := by
  refine (broadcastInDim_apply ![0, 1] h₂ _ (ix2 p k) (ix2 (0 : Fin 1) k) fun a => ?_).trans
    (broadcastInDim_apply ![1] h₁ b (ix2 (0 : Fin 1) k) (ix1 k) fun a => ?_)
  · match a with
    | ⟨0, _⟩ => rfl
    | ⟨1, _⟩ =>
      show k.val = if K = 1 then 0 else k.val
      split
      · have := k.isLt; omega
      · rfl
  · match a with
    | ⟨0, _⟩ =>
      show k.val = if K = 1 then 0 else k.val
      split
      · have := k.isLt; omega
      · rfl

/-- The reference's second dense stage as it prints. -/
def hostHidden (a : FVec Ideal S100000x128 .f32) (b : FVec Ideal S128 .f32) (w : FVec Ideal S128x40 .f32) : FVec Ideal S100000x40 .f32 :=
  Host.dotGeneral dot_S100000x128_S128x40_S100000x40_1_0_0_1_n_n none
    (maximumf (addf a (broadcastInDim S100000x128 ![0, 1] bcast_S1x128_S100000x128_0_1 (broadcastInDim S1x128 ![1] bcast_S128_S1x128_1 b)))
      (broadcastInDim S100000x128 ![] bcast_S_S100000x128 (constant S_ .f32 0x00000000#32))) w

theorem hostHidden_eq (a : FVec Ideal S100000x128 .f32) (b : FVec Ideal S128 .f32) (w : FVec Ideal S128x40 .f32) :
    hostHidden a b w = hiddenTimes (M := 100000) (K := 128) (N := 40) a b w := by
  unfold hostHidden
  rw [dotGeneral_eq rowsCols40 none]
  refine congrArg (fun z => rowsTimes (M := 100000) (K := 128) (N := 40) z w) (funext fun i => ?_)
  obtain ⟨p, k, rfl⟩ : ∃ (p : Fin 100000) (k : Fin 128), i = ix2 p k := ⟨i 0, i 1, eq_ix2 i⟩
  show max (a (ix2 p k) + broadcastInDim S100000x128 ![0, 1] bcast_S1x128_S100000x128_0_1 (broadcastInDim S1x128 ![1] bcast_S128_S1x128_1 b) (ix2 p k))
      (broadcastInDim S100000x128 ![] bcast_S_S100000x128 (constant (F := Ideal) S_ .f32 0x00000000#32) (ix2 p k))
    = max (a (ix2 p k) + b (ix1 k)) (Ideal.ofBits .f32 0x00000000#32)
  rw [bias_rows_apply b bcast_S128_S1x128_1 bcast_S1x128_S100000x128_0_1 p k,
    broadcastInDim_apply ![] bcast_S_S100000x128 _ (ix2 p k) ix0 (fun a => a.elim0)]
  rfl

end Cert.ReferenceIdeal.Dense

end
-- ==== Proof.HostSoftmax.lean ====
/-
  The reference's bias and outlined `log_softmax` are `biasLogSoftmax a b₂`: the row maximum is a reduce from −∞ followed
  by one more maximum with −∞ (which changes nothing: a fold of `max` from −∞ is already at least −∞), kept as a column and
  repeated along the row; the sum of exponentials is a reduce from zero (`0 + ∑`), its logarithm kept and repeated the
  same way. Every step below reads ONE operation at an index, its operand a variable.
-/
import proofs.«149227_j18811956756716_1_alg».proof.Proof.Gen.ReferenceIdeal
import Idealize.ShloMosaic.Lib.Pipeline.Value
import Idealize.ShloMosaic.Lib.ValueLayout
import proofs.«149227_j18811956756716_1_alg».proof.Proof.Layers

set_option maxRecDepth 16384

noncomputable section

namespace Cert.ReferenceIdeal.Softmax

open Cert.ReferenceIdeal Cert.ReferenceIdeal.Gen Idealize.ShloMosaic
open Idealize.ShloMosaic.ValueIdx Cert.Gcn

/-! ## One operation at an index -/

theorem host_log_apply {s : Shape} (y : FVec Ideal s .f32) (i : s.Idx) : Host.log y i = Ideal.log (y i) := rfl

theorem host_exp_apply {s : Shape} (y : FVec Ideal s .f32) (i : s.Idx) : Host.exp y i = Ideal.exp (y i) := rfl

/-- A scalar constant repeated over a shape reads the constant's value. -/
theorem splat_apply {t : Shape} (h : S_.BroadcastsInDim t ![]) (w : BitVec 32) (i : t.Idx) :
    broadcastInDim t ![] h (constant (F := Ideal) S_ .f32 w) i = Ideal.ofBits .f32 w :=
  broadcastInDim_apply ![] h _ i ix0 (fun a => a.elim0)

/-- A bias kept as a one-row matrix and repeated down the rows reads the bias at the column. -/
theorem bias_rows_apply (b : FVec Ideal S40 .f32) (p : Fin 100000) (k : Fin 40) :
    broadcastInDim S100000x40 ![0, 1] bcast_S1x40_S100000x40_0_1 (broadcastInDim S1x40 ![1] bcast_S40_S1x40_1 b) (ix2 p k) = b (ix1 k) := by
  refine (broadcastInDim_apply ![0, 1] bcast_S1x40_S100000x40_0_1 _ (ix2 p k) (ix2 (0 : Fin 1) k) fun a => ?_).trans
    (broadcastInDim_apply ![1] bcast_S40_S1x40_1 b (ix2 (0 : Fin 1) k) (ix1 k) fun a => ?_)
  · match a with
    | ⟨0, _⟩ => rfl
    | ⟨1, _⟩ => rfl
  · match a with
    | ⟨0, _⟩ => rfl

/-- A one-column matrix repeated along the row reads the column at the row. -/
theorem along_row_apply (y : FVec Ideal S100000x1 .f32) (p : Fin 100000) (c : Fin 40) :
    broadcastInDim S100000x40 ![0, 1] bcast_S100000x1_S100000x40_0_1 y (ix2 p c) = y (ix2 p (0 : Fin 1)) :=
  broadcastInDim_apply ![0, 1] bcast_S100000x1_S100000x40_0_1 y (ix2 p c) (ix2 p (0 : Fin 1)) fun a => by
    match a with
    | ⟨0, _⟩ => rfl
    | ⟨1, _⟩ => rfl

/-- A vector kept as a one-column matrix reads the vector at the row. -/
theorem as_column_apply (z : FVec Ideal S100000 .f32) (p : Fin 100000) :
    broadcastInDim S100000x1 ![0] bcast_S100000_S100000x1_0 z (ix2 p (0 : Fin 1)) = z (ix1 p) :=
  broadcastInDim_apply ![0] bcast_S100000_S100000x1_0 z (ix2 p (0 : Fin 1)) (ix1 p) fun a => by
    match a with
    | ⟨0, _⟩ => rfl

theorem reduces : S100000x40.Reduces [1] S100000 := by decide

/-- The index the reduce over the columns inserts at position `k` of row `p` is `(p, k)`. -/
theorem lift_row (p : Fin 100000) (k : Fin 40) : reduces.lift (ix1 p) k = ix2 p k :=
  funext fun a => Fin.ext (by match a with | ⟨0, _⟩ => rfl | ⟨1, _⟩ => rfl)

/-- A fold of `max` from `a` is already at least `a`. -/
theorem max_fold_self {ι : Type} (s : Finset ι) (a : EReal) (f : ι → EReal) : max a (s.fold max a f) = s.fold max a f :=
  max_eq_right (by rw [Finset.le_fold_max]; exact Or.inl le_rfl)

/-- The host's maximum over the columns, started from the word of −∞, at row `p`: the row's maximum. -/
theorem host_max_apply (v : FVec Ideal S100000x40 .f32) (p : Fin 100000) :
    Host.reduce FloatOps.maximumf v (constant (F := Ideal) S_ .f32 0xFF800000#32) reducesTo_S100000x40_S100000_d1 h_S_ (ix1 p)
      = rowMax (M := 100000) (N := 40) v p := by
  rw [Host.reduce_eq_fold_single FloatOps.maximumf v _ reducesTo_S100000x40_S100000_d1 reduces h_S_ (ix1 p)]
  exact congrArg (fun f : Fin 40 → EReal => (Finset.univ : Finset (Fin 40)).fold max (Ideal.ofBits .f32 0xFF800000#32) f)
    (funext fun k => congrArg v (lift_row p k))

/-- The host's sum over the columns, started from zero, at row `p`: the row's sum. -/
theorem host_sum_apply (u : FVec Ideal S100000x40 .f32) (p : Fin 100000) :
    Host.reduceAdd u (constant (F := Ideal) S_ .f32 0x00000000#32) reducesTo_S100000x40_S100000_d1 h_S_ (ix1 p)
      = ∑ k : Fin 40, u (ix2 p k) := by
  simp only [Host.reduceAdd, Ideal.hostReduceAdd_def]
  rw [Ideal.hostReduceAdd_single reducesTo_S100000x40_S100000_d1 reduces, constant_apply, Ideal.ofBits_zero_f32, zero_add]
  exact Finset.sum_congr rfl fun k _ => congrArg u (lift_row p k)

/-! ## The row maximum as the reference keeps it -/

/-- The reference's row maximum, kept as a column and repeated along the row. -/
def hostRowMax (v : FVec Ideal S100000x40 .f32) : FVec Ideal S100000x40 .f32 :=
  broadcastInDim S100000x40 ![0, 1] bcast_S100000x1_S100000x40_0_1 (broadcastInDim S100000x1 ![0] bcast_S100000_S100000x1_0
    (maximumf (broadcastInDim S100000 ![] bcast_S_S100000 (constant S_ .f32 0xFF800000#32))
      (Host.reduce FloatOps.maximumf v (constant S_ .f32 0xFF800000#32) reducesTo_S100000x40_S100000_d1 h_S_)))

theorem hostRowMax_apply (v : FVec Ideal S100000x40 .f32) (p : Fin 100000) (c : Fin 40) :
    hostRowMax v (ix2 p c) = rowMax (M := 100000) (N := 40) v p := by
  unfold hostRowMax
  rw [along_row_apply, as_column_apply, maximumf_apply, splat_apply, host_max_apply]
  exact max_fold_self _ _ _

/-! ## Bias and log-softmax -/

/-- The reference's last stage as it prints: the bias, then the outlined log-softmax. -/
def hostLogSoftmax (a : FVec Ideal S100000x40 .f32) (b : FVec Ideal S40 .f32) : FVec Ideal S100000x40 .f32 :=
  subf (subf (addf a (broadcastInDim S100000x40 ![0, 1] bcast_S1x40_S100000x40_0_1 (broadcastInDim S1x40 ![1] bcast_S40_S1x40_1 b)))
      (hostRowMax (addf a (broadcastInDim S100000x40 ![0, 1] bcast_S1x40_S100000x40_0_1 (broadcastInDim S1x40 ![1] bcast_S40_S1x40_1 b)))))
    (broadcastInDim S100000x40 ![0, 1] bcast_S100000x1_S100000x40_0_1 (Host.log (broadcastInDim S100000x1 ![0] bcast_S100000_S100000x1_0
      (Host.reduceAdd (Host.exp (subf (addf a (broadcastInDim S100000x40 ![0, 1] bcast_S1x40_S100000x40_0_1 (broadcastInDim S1x40 ![1] bcast_S40_S1x40_1 b)))
          (hostRowMax (addf a (broadcastInDim S100000x40 ![0, 1] bcast_S1x40_S100000x40_0_1 (broadcastInDim S1x40 ![1] bcast_S40_S1x40_1 b))))))
        (constant S_ .f32 0x00000000#32) reducesTo_S100000x40_S100000_d1 h_S_))))

theorem biased_eq (a : FVec Ideal S100000x40 .f32) (b : FVec Ideal S40 .f32) :
    addf a (broadcastInDim S100000x40 ![0, 1] bcast_S1x40_S100000x40_0_1 (broadcastInDim S1x40 ![1] bcast_S40_S1x40_1 b))
      = biased (M := 100000) (N := 40) a b := by
  funext i
  obtain ⟨p, c, rfl⟩ : ∃ (p : Fin 100000) (c : Fin 40), i = ix2 p c := ⟨i 0, i 1, eq_ix2 i⟩
  rw [addf_apply, bias_rows_apply]
  rfl

/-- The log-softmax of an array `v` as the reference prints it, at an entry. -/
theorem normalised_apply (v : FVec Ideal S100000x40 .f32) (p : Fin 100000) (c : Fin 40) :
    subf (subf v (hostRowMax v))
      (broadcastInDim S100000x40 ![0, 1] bcast_S100000x1_S100000x40_0_1 (Host.log (broadcastInDim S100000x1 ![0] bcast_S100000_S100000x1_0
        (Host.reduceAdd (Host.exp (subf v (hostRowMax v))) (constant S_ .f32 0x00000000#32) reducesTo_S100000x40_S100000_d1 h_S_)))) (ix2 p c)
      = logSoftmaxRows (M := 100000) (N := 40) v (ix2 p c) := by
  rw [subf_apply, subf_apply, hostRowMax_apply, along_row_apply, host_log_apply, as_column_apply, host_sum_apply]
  refine congrArg (fun z => v (ix2 p c) - rowMax (M := 100000) (N := 40) v p - Ideal.log z) ?_
  refine Finset.sum_congr rfl fun k _ => ?_
  rw [host_exp_apply, subf_apply, hostRowMax_apply]

theorem hostLogSoftmax_eq (a : FVec Ideal S100000x40 .f32) (b : FVec Ideal S40 .f32) :
    hostLogSoftmax a b = biasLogSoftmax (M := 100000) (N := 40) a b := by
  unfold hostLogSoftmax
  rw [biased_eq]
  funext i
  obtain ⟨p, c, rfl⟩ : ∃ (p : Fin 100000) (c : Fin 40), i = ix2 p c := ⟨i 0, i 1, eq_ix2 i⟩
  exact normalised_apply (biased (M := 100000) (N := 40) a b) p c

end Cert.ReferenceIdeal.Softmax

end
-- ==== Proof.ReferenceValue.lean ====
/-
  What the reference's result buffer holds after its run, as the same expression of the six arguments.

  The reference is a straight line of 94 host operations; after its run every buffer holds the fold of the
  operations over the launch memory. The fold is read in five stretches, each over the contents `W` it starts from:
  the edge lists with self loops and the edge weights; the first product and the aggregation of 128 features; the
  bias, rectifier and second product; the aggregation of 40 features; the bias and the outlined log-softmax. The sparse
  stretches are the same operations the kernel program applies (`Cert.Gcn.Sparse`), the dense ones are the
  specification's functions (`Cert.ReferenceIdeal.Dense`). A buffer a stretch does not write is carried unchanged.
-/
import proofs.«149227_j18811956756716_1_alg».proof.Proof.ReferenceRun
import Idealize.ShloMosaic.Lib.StableHlo.Run
import proofs.«149227_j18811956756716_1_alg».proof.Proof.LibHostStretches
import proofs.«149227_j18811956756716_1_alg».proof.Proof.Network
import proofs.«149227_j18811956756716_1_alg».proof.Proof.HostProducts
import proofs.«149227_j18811956756716_1_alg».proof.Proof.HostSoftmax

set_option maxRecDepth 16384

noncomputable section

namespace Cert.ReferenceIdeal.Composed

open Cert.ReferenceIdeal Cert.ReferenceIdeal.Gen Cert.ReferenceIdeal.ValueP Idealize.ShloMosaic Idealize.ShloMosaic.TcCoe Idealize.SL.Sem
open Idealize.ShloMosaic.StableHlo Cert.Dense Cert.Gcn Cert.Gcn.Sparse Cert.ReferenceIdeal.Dense Cert.ReferenceIdeal.Softmax Cert.HostLine

variable (W : Valuation τ sig (Elt Ideal))

/-- The five stretches of the reference's operations. -/
abbrev opsA : List (HloOp τ sig (Elt Ideal)) := (ops (F := Ideal)).take 36
abbrev opsB : List (HloOp τ sig (Elt Ideal)) := ((ops (F := Ideal)).drop 36).take 17
abbrev opsC : List (HloOp τ sig (Elt Ideal)) := (((ops (F := Ideal)).drop 36).drop 17).take 7
abbrev opsD : List (HloOp τ sig (Elt Ideal)) := ((((ops (F := Ideal)).drop 36).drop 17).drop 7).take 16
abbrev opsE : List (HloOp τ sig (Elt Ideal)) := ((((ops (F := Ideal)).drop 36).drop 17).drop 7).drop 16

theorem after_ops (V : Valuation τ sig (Elt Ideal)) :
    after (ops (F := Ideal)) V = after opsE (after opsD (after opsC (after opsB (after opsA V)))) := by
  rw [after_split 36 ops V, after_split 17 (ops.drop 36), after_split 7 ((ops.drop 36).drop 17),
    after_split 16 (((ops.drop 36).drop 17).drop 7)]

/-! ## Stretch A: the edge lists and the edge weights -/

theorem sourcesA : after opsA W (Proc.devRef .tc main_v3) = sources (F := Ideal) (W (Proc.devRef .tc main_arg1)) := by
  simp only [opsA, opsB, opsC, opsD, opsE, ops, List.drop_succ_cons, List.drop_zero, List.take_succ_cons, List.take_zero]
  after_results_simp <;> rfl

theorem targetsA : after opsA W (Proc.devRef .tc main_v6) = targets (F := Ideal) (W (Proc.devRef .tc main_arg1)) := by
  simp only [opsA, opsB, opsC, opsD, opsE, ops, List.drop_succ_cons, List.drop_zero, List.take_succ_cons, List.take_zero]
  after_results_simp <;> rfl

theorem weightsA : after opsA W (Proc.devRef .tc main_v28)
    = edgeWeight (F := Ideal) (sources (W (Proc.devRef .tc main_arg1))) (targets (W (Proc.devRef .tc main_arg1))) := by
  simp only [opsA, opsB, opsC, opsD, opsE, ops, List.drop_succ_cons, List.drop_zero, List.take_succ_cons, List.take_zero]
  after_results_simp <;> rfl

theorem arg0_A : after opsA W (Proc.devRef .tc main_arg0) = W (Proc.devRef .tc main_arg0) := by
  simp only [opsA, opsB, opsC, opsD, opsE, ops, List.drop_succ_cons, List.drop_zero, List.take_succ_cons, List.take_zero]
  after_results_simp <;> rfl

theorem arg2_A : after opsA W (Proc.devRef .tc main_arg2) = W (Proc.devRef .tc main_arg2) := by
  simp only [opsA, opsB, opsC, opsD, opsE, ops, List.drop_succ_cons, List.drop_zero, List.take_succ_cons, List.take_zero]
  after_results_simp <;> rfl

theorem arg3_A : after opsA W (Proc.devRef .tc main_arg3) = W (Proc.devRef .tc main_arg3) := by
  simp only [opsA, opsB, opsC, opsD, opsE, ops, List.drop_succ_cons, List.drop_zero, List.take_succ_cons, List.take_zero]
  after_results_simp <;> rfl

theorem arg4_A : after opsA W (Proc.devRef .tc main_arg4) = W (Proc.devRef .tc main_arg4) := by
  simp only [opsA, opsB, opsC, opsD, opsE, ops, List.drop_succ_cons, List.drop_zero, List.take_succ_cons, List.take_zero]
  after_results_simp <;> rfl

theorem arg5_A : after opsA W (Proc.devRef .tc main_arg5) = W (Proc.devRef .tc main_arg5) := by
  simp only [opsA, opsB, opsC, opsD, opsE, ops, List.drop_succ_cons, List.drop_zero, List.take_succ_cons, List.take_zero]
  after_results_simp <;> rfl

/-! ## Stretch B: the first product and the aggregation of 128 features -/

theorem aggregatedB : after opsB W (Proc.devRef .tc main_v42)
    = aggregate128 (F := Ideal) (W (Proc.devRef .tc main_v3)) (W (Proc.devRef .tc main_v6)) (W (Proc.devRef .tc main_v28))
        (Host.dotGeneral (F := Ideal) (φ₁ := .f32) (φ₂ := .f32) dot_S100000x128_S128x128_S100000x128_1_0_0_1_n_n none (W (Proc.devRef .tc main_arg0)) (W (Proc.devRef .tc main_arg2))) := by
  simp only [opsA, opsB, opsC, opsD, opsE, ops, List.drop_succ_cons, List.drop_zero, List.take_succ_cons, List.take_zero]
  after_results_simp <;> rfl

theorem v3_B : after opsB W (Proc.devRef .tc main_v3) = W (Proc.devRef .tc main_v3) := by
  simp only [opsA, opsB, opsC, opsD, opsE, ops, List.drop_succ_cons, List.drop_zero, List.take_succ_cons, List.take_zero]
  after_results_simp <;> rfl

theorem v6_B : after opsB W (Proc.devRef .tc main_v6) = W (Proc.devRef .tc main_v6) := by
  simp only [opsA, opsB, opsC, opsD, opsE, ops, List.drop_succ_cons, List.drop_zero, List.take_succ_cons, List.take_zero]
  after_results_simp <;> rfl

theorem v28_B : after opsB W (Proc.devRef .tc main_v28) = W (Proc.devRef .tc main_v28) := by
  simp only [opsA, opsB, opsC, opsD, opsE, ops, List.drop_succ_cons, List.drop_zero, List.take_succ_cons, List.take_zero]
  after_results_simp <;> rfl

theorem arg3_B : after opsB W (Proc.devRef .tc main_arg3) = W (Proc.devRef .tc main_arg3) := by
  simp only [opsA, opsB, opsC, opsD, opsE, ops, List.drop_succ_cons, List.drop_zero, List.take_succ_cons, List.take_zero]
  after_results_simp <;> rfl

theorem arg4_B : after opsB W (Proc.devRef .tc main_arg4) = W (Proc.devRef .tc main_arg4) := by
  simp only [opsA, opsB, opsC, opsD, opsE, ops, List.drop_succ_cons, List.drop_zero, List.take_succ_cons, List.take_zero]
  after_results_simp <;> rfl

theorem arg5_B : after opsB W (Proc.devRef .tc main_arg5) = W (Proc.devRef .tc main_arg5) := by
  simp only [opsA, opsB, opsC, opsD, opsE, ops, List.drop_succ_cons, List.drop_zero, List.take_succ_cons, List.take_zero]
  after_results_simp <;> rfl

/-! ## Stretch C: bias, rectifier, second product -/

theorem hiddenC : after opsC W (Proc.devRef .tc main_v47)
    = hostHidden (W (Proc.devRef .tc main_v42)) (W (Proc.devRef .tc main_arg3)) (W (Proc.devRef .tc main_arg4)) := by
  simp only [opsA, opsB, opsC, opsD, opsE, ops, List.drop_succ_cons, List.drop_zero, List.take_succ_cons, List.take_zero]
  after_results_simp <;> rfl

theorem v3_C : after opsC W (Proc.devRef .tc main_v3) = W (Proc.devRef .tc main_v3) := by
  simp only [opsA, opsB, opsC, opsD, opsE, ops, List.drop_succ_cons, List.drop_zero, List.take_succ_cons, List.take_zero]
  after_results_simp <;> rfl

theorem v6_C : after opsC W (Proc.devRef .tc main_v6) = W (Proc.devRef .tc main_v6) := by
  simp only [opsA, opsB, opsC, opsD, opsE, ops, List.drop_succ_cons, List.drop_zero, List.take_succ_cons, List.take_zero]
  after_results_simp <;> rfl

theorem v28_C : after opsC W (Proc.devRef .tc main_v28) = W (Proc.devRef .tc main_v28) := by
  simp only [opsA, opsB, opsC, opsD, opsE, ops, List.drop_succ_cons, List.drop_zero, List.take_succ_cons, List.take_zero]
  after_results_simp <;> rfl

theorem arg5_C : after opsC W (Proc.devRef .tc main_arg5) = W (Proc.devRef .tc main_arg5) := by
  simp only [opsA, opsB, opsC, opsD, opsE, ops, List.drop_succ_cons, List.drop_zero, List.take_succ_cons, List.take_zero]
  after_results_simp <;> rfl

/-! ## Stretch D: the aggregation of 40 features -/

theorem aggregatedD : after opsD W (Proc.devRef .tc main_v60)
    = aggregate40 (F := Ideal) (W (Proc.devRef .tc main_v3)) (W (Proc.devRef .tc main_v6)) (W (Proc.devRef .tc main_v28)) (W (Proc.devRef .tc main_v47)) := by
  simp only [opsA, opsB, opsC, opsD, opsE, ops, List.drop_succ_cons, List.drop_zero, List.take_succ_cons, List.take_zero]
  after_results_simp <;> rfl

theorem arg5_D : after opsD W (Proc.devRef .tc main_arg5) = W (Proc.devRef .tc main_arg5) := by
  simp only [opsA, opsB, opsC, opsD, opsE, ops, List.drop_succ_cons, List.drop_zero, List.take_succ_cons, List.take_zero]
  after_results_simp <;> rfl

/-! ## Stretch E: bias and the outlined log-softmax -/

theorem logitsE : after opsE W (Proc.devRef .tc main_v64)
    = hostLogSoftmax (W (Proc.devRef .tc main_v60)) (W (Proc.devRef .tc main_arg5)) := by
  simp only [opsA, opsB, opsC, opsD, opsE, ops, List.drop_succ_cons, List.drop_zero, List.take_succ_cons, List.take_zero]
  after_results_simp
  simp only [ofBuf_toBuf]
  rfl

/-! ## The whole -/

/-- After the reference's operations the result buffer holds the network of the six arguments the line started from. -/
theorem result_eq (V : Valuation τ sig (Elt Ideal)) :
    after (ops (F := Ideal)) V (Proc.devRef .tc main_v64)
      = network (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [after_ops, logitsE, aggregatedD, arg5_D, hiddenC, v3_C, v6_C, v28_C, arg5_C, aggregatedB, v3_B, v6_B, v28_B, arg3_B, arg4_B, arg5_B,
    sourcesA, targetsA, weightsA, arg0_A, arg2_A, arg3_A, arg4_A, arg5_A,
    hostLogSoftmax_eq, hostHidden_eq, product_eq]
  rfl

end Cert.ReferenceIdeal.Composed

end
-- ==== Proof.lean ====
/-
  The certificate of a two-layer graph convolution with a row-wise log-softmax head.

  Both programs compute, from node features `x`, an edge list, and the layers' weights and biases,

    log_softmax (A (relu (A (x · W₁) + b₁) · W₂) + b₂),

  `A` the degree-normalised aggregation over the edge list with self loops. The reference does everything with host
  operations; the kernel program keeps the sparse aggregation on the host and runs the three dense stages as
  pipelined launches over 25 blocks of 4000 rows: `x · W₁`; `relu (· + b₁) · W₂`; `log_softmax (· + b₂)`. Each dense
  stage is row-local, so a launch's 25 blocks are one whole-array function of the arrays it found (`Linear`, `Hidden`,
  `LogSoftmax`), equal on the extended reals to the reference's `dot_general`, bias, `relu` and outlined `log_softmax`
  (`HostStages`): a matrix unit's product into a zero accumulator and a `dot_general` are the same sum, a change of
  float format is the identity, a lane reduction and a host reduce fold the same row, and one more maximum with −∞
  changes nothing. The sparse part is the same operations on both sides and is never opened. No law used needs a
  finite entry, so the precondition is not opened either.

  The three frames are the generated ones (the reference's: its run with the result dropped); the idealization
  rewrote nothing, so `preserves` asks nothing; `algebraic` sets the two runs side by side at the network expression.
-/
import proofs.«149227_j18811956756716_1_alg».proof.Defs
import proofs.«149227_j18811956756716_1_alg».proof.Proof.Gen.Kernel
import proofs.«149227_j18811956756716_1_alg».proof.Proof.Gen.Kernel.Skeleton
import proofs.«149227_j18811956756716_1_alg».proof.Proof.Gen.Kernel.Launch
import proofs.«149227_j18811956756716_1_alg».proof.Proof.Gen.Kernel.Points
import proofs.«149227_j18811956756716_1_alg».proof.Proof.Gen.Kernel.Frame
import proofs.«149227_j18811956756716_1_alg».proof.Proof.Gen.KernelIdeal
import proofs.«149227_j18811956756716_1_alg».proof.Proof.Gen.KernelIdeal.Skeleton
import proofs.«149227_j18811956756716_1_alg».proof.Proof.Gen.KernelIdeal.Launch
import proofs.«149227_j18811956756716_1_alg».proof.Proof.Gen.KernelIdeal.Points
import proofs.«149227_j18811956756716_1_alg».proof.Proof.Gen.KernelIdeal.Frame
import proofs.«149227_j18811956756716_1_alg».proof.Proof.Gen.ReferenceIdeal
import proofs.«149227_j18811956756716_1_alg».proof.Proof.Gen.Pre_finite_inputs
import proofs.«149227_j18811956756716_1_alg».proof.Proof.KernelRun
import proofs.«149227_j18811956756716_1_alg».proof.Proof.Composed
import proofs.«149227_j18811956756716_1_alg».proof.Proof.ReferenceRun
import proofs.«149227_j18811956756716_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- On the extended reals both programs end with the network of the six arguments in their result buffers. -/
theorem algebraic : Cert.algebraic_KernelIdeal_ReferenceIdeal := by
  intro m ρ m' ρ' _ hagree
  refine ⟨fun c => Cert.Gcn.network
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Composed.result_eq m ρ c), (h c).2⟩)
      (Cert.KernelIdeal.Result.run (F := Ideal) m ρ)
  · refine (θ_run Cert.ReferenceIdeal.defs _ _).mono (fun _ h c => ⟨(h c).1.trans ?_, (h c).2⟩)
      (Cert.ReferenceIdeal.ValueP.run (F := Ideal) m' ρ')
    refine (Cert.ReferenceIdeal.Composed.result_eq (StableHlo.launchContents m' c)).trans ?_
    show Cert.Gcn.network
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) = _
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
